-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v69)) (v1 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_v70) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S800000 : Shape := ⟨1, ![800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S256x128 .f32) (main_arg6 : FVec F S128 .f32) (main_arg7 : FVec F S256x128 .f32) (main_arg8 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_v33

def fn {F : FTy → Type} [FloatOps F] (main_arg0 : FVec F S50000x256 .f32) (main_arg1 : IVec S2x800000 32) (main_arg2 : FVec F S800000 .f32) (main_arg3 : FVec F S256x256 .f32) (main_arg4 : FVec F S256 .f32) (main_arg5 : FVec F S256x128 .f32) (main_arg6 : FVec F S128 .f32) (main_arg7 : FVec F S256x128 .f32) (main_arg8 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_v13 main_v16
-- ==== Kernel.lean ====
abbrev S50000x256 : Shape := ⟨2, ![50000, 256]⟩
abbrev S2x800000 : Shape := ⟨2, ![2, 800000]⟩
abbrev S800000 : Shape := ⟨1, ![800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x256 : Shape := ⟨2, ![5000, 256]⟩
abbrev S850000x256 : Shape := ⟨2, ![850000, 256]⟩
abbrev S1x256 : Shape := ⟨2, ![1, 256]⟩
abbrev S50000x128 : Shape := ⟨2, ![50000, 128]⟩

abbrev nBuf : Space → Nat
  | .hbm => 98
  | .vmem => 10
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .f32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S50000, .i32⟩
  | .hbm, ⟨14, _⟩ => ⟨S850000, .i32⟩
  | .hbm, ⟨15, _⟩ => ⟨S850000, .i32⟩
  | .hbm, ⟨16, _⟩ => ⟨S_, .f32⟩
  | .hbm, ⟨17, _⟩ => ⟨S50000, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x256, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x256, .f32⟩
  | .hbm, ⟨61, _⟩ => ⟨S850000x1, .f32⟩
  | .hbm, ⟨62, _⟩ => ⟨S850000x256, .f32⟩
  | .hbm, ⟨63, _⟩ => ⟨S850000x256, .f32⟩
  | .hbm, ⟨64, _⟩ => ⟨S_, .f32⟩
  | .hbm, ⟨65, _⟩ => ⟨S50000x256, .f32⟩
  | .hbm, ⟨66, _⟩ => ⟨S850000x1, .i32⟩
  | .hbm, ⟨67, _⟩ => ⟨S50000x256, .f32⟩
  | .hbm, ⟨68, _⟩ => ⟨S1x256, .f32⟩
  | .hbm, ⟨69, _⟩ => ⟨S50000x256, .f32⟩
  | .hbm, ⟨70, _⟩ => ⟨S50000x256, .f32⟩
  | .hbm, ⟨71, _⟩ => ⟨S_, .f32⟩
  | .hbm, ⟨72, _⟩ => ⟨S50000x256, .f32⟩
  | .hbm, ⟨73, _⟩ => ⟨S50000x256, .f32⟩
  | .hbm, ⟨74, _⟩ => ⟨S256x256, .f32⟩
  | .hbm, ⟨75, _⟩ => ⟨S256, .f32⟩
  | .hbm, ⟨76, _⟩ => ⟨S50000x256, .f32⟩
  | .hbm, ⟨77, _⟩ => ⟨S_, .i32⟩
  | .hbm, ⟨78, _⟩ => ⟨S850000, .i32⟩
  | .hbm, ⟨79, _⟩ => ⟨S850000, .i1⟩
  | .hbm, ⟨80, _⟩ => ⟨S_, .i32⟩
  | .hbm, ⟨81, _⟩ => ⟨S850000, .i32⟩
  | .hbm, ⟨82, _⟩ => ⟨S850000, .i32⟩
  | .hbm, ⟨83, _⟩ => ⟨S850000, .i32⟩
  | .hbm, ⟨84, _⟩ => ⟨S850000x1, .i32⟩
  | .hbm, ⟨85, _⟩ => ⟨S850000x256, .f32⟩
  | .hbm, ⟨86, _⟩ => ⟨S850000x1, .f32⟩
  | .hbm, ⟨87, _⟩ => ⟨S850000x256, .f32⟩
  | .hbm, ⟨88, _⟩ => ⟨S850000x256, .f32⟩
  | .hbm, ⟨89, _⟩ => ⟨S_, .f32⟩
  | .hbm, ⟨90, _⟩ => ⟨S50000x256, .f32⟩
  | .hbm, ⟨91, _⟩ => ⟨S850000x1, .i32⟩
  | .hbm, ⟨92, _⟩ => ⟨S50000x256, .f32⟩
  | .hbm, ⟨93, _⟩ => ⟨S1x256, .f32⟩
  | .hbm, ⟨94, _⟩ => ⟨S50000x256, .f32⟩
  | .hbm, ⟨95, _⟩ => ⟨S50000x256, .f32⟩
  | .hbm, ⟨96, _⟩ => ⟨S50000x128, .f32⟩
  | .hbm, ⟨97, _⟩ => ⟨S50000x128, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256x256, .f32⟩
  | .local _ .vmem, ⟨8, _⟩ => ⟨S5000x256, .f32⟩
  | .local _ .vmem, ⟨9, _⟩ => ⟨S5000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_9 : Ref sig .tc := ⟨.hbm, 77, rfl⟩
abbrev main_v53 : Ref sig .tc := ⟨.hbm, 78, rfl⟩
abbrev main_v54 : Ref sig .tc := ⟨.hbm, 79, rfl⟩
abbrev main_c_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_11 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  concatenates_S256x128_S256x128_S256x256_d1 : Shape.Concatenates [S256x128, S256x128] S256x256 1
  concatenates_S128_S128_S256_d0 : Shape.Concatenates [S128, S128] S256 0
  shapeCasts_S5000x256_S5000x256 : S5000x256.ShapeCasts S5000x256
  shapeCasts_S256x256_S256x256 : S256x256.ShapeCasts S256x256
  slices_S50000x256_S50000x128_0_0 : S50000x256.Slices ![0, 0] S50000x128
  slices_S50000x256_S50000x128_0_128 : S50000x256.Slices ![0, 128] S50000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x256_S5000x256_1_0_0_1_n_n_wf : DotDims.WF S5000x256 S256x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S800000 : Shape := ⟨1, ![800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x128 : Shape := ⟨2, ![50000, 128]⟩
abbrev S850000x128 : Shape := ⟨2, ![850000, 128]⟩
abbrev S1x128 : Shape := ⟨2, ![1, 128]⟩

abbrev nBuf : Space → Nat
  | .hbm => 114
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .f32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S50000, .i32⟩
  | .hbm, ⟨14, _⟩ => ⟨S850000, .i32⟩
  | .hbm, ⟨15, _⟩ => ⟨S850000, .i32⟩
  | .hbm, ⟨16, _⟩ => ⟨S_, .f32⟩
  | .hbm, ⟨17, _⟩ => ⟨S50000, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x256, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x256, .f32⟩
  | .hbm, ⟨61, _⟩ => ⟨S850000x1, .f32⟩
  | .hbm, ⟨62, _⟩ => ⟨S850000x256, .f32⟩
  | .hbm, ⟨63, _⟩ => ⟨S850000x256, .f32⟩
  | .hbm, ⟨64, _⟩ => ⟨S_, .f32⟩
  | .hbm, ⟨65, _⟩ => ⟨S50000x256, .f32⟩
  | .hbm, ⟨66, _⟩ => ⟨S850000x1, .i32⟩
  | .hbm, ⟨67, _⟩ => ⟨S50000x256, .f32⟩
  | .hbm, ⟨68, _⟩ => ⟨S1x256, .f32⟩
  | .hbm, ⟨69, _⟩ => ⟨S50000x256, .f32⟩
  | .hbm, ⟨70, _⟩ => ⟨S50000x256, .f32⟩
  | .hbm, ⟨71, _⟩ => ⟨S_, .f32⟩
  | .hbm, ⟨72, _⟩ => ⟨S50000x256, .f32⟩
  | .hbm, ⟨73, _⟩ => ⟨S50000x256, .f32⟩
  | .hbm, ⟨74, _⟩ => ⟨S50000x128, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000x128, .f32⟩
  | .hbm, ⟨84, _⟩ => ⟨S850000x1, .f32⟩
  | .hbm, ⟨85, _⟩ => ⟨S850000x128, .f32⟩
  | .hbm, ⟨86, _⟩ => ⟨S850000x128, .f32⟩
  | .hbm, ⟨87, _⟩ => ⟨S_, .f32⟩
  | .hbm, ⟨88, _⟩ => ⟨S50000x128, .f32⟩
  | .hbm, ⟨89, _⟩ => ⟨S850000x1, .i32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S50000x128, .f32⟩
  | .hbm, ⟨95, _⟩ => ⟨S_, .i32⟩
  | .hbm, ⟨96, _⟩ => ⟨S850000, .i32⟩
  | .hbm, ⟨97, _⟩ => ⟨S850000, .i1⟩
  | .hbm, ⟨98, _⟩ => ⟨S_, .i32⟩
  | .hbm, ⟨99, _⟩ => ⟨S850000, .i32⟩
  | .hbm, ⟨100, _⟩ => ⟨S850000, .i32⟩
  | .hbm, ⟨101, _⟩ => ⟨S850000, .i32⟩
  | .hbm, ⟨102, _⟩ => ⟨S850000x1, .i32⟩
  | .hbm, ⟨103, _⟩ => ⟨S850000x128, .f32⟩
  | .hbm, ⟨104, _⟩ => ⟨S850000x1, .f32⟩
  | .hbm, ⟨105, _⟩ => ⟨S850000x128, .f32⟩
  | .hbm, ⟨106, _⟩ => ⟨S850000x128, .f32⟩
  | .hbm, ⟨107, _⟩ => ⟨S_, .f32⟩
  | .hbm, ⟨108, _⟩ => ⟨S50000x128, .f32⟩
  | .hbm, ⟨109, _⟩ => ⟨S850000x1, .i32⟩
  | .hbm, ⟨110, _⟩ => ⟨S50000x128, .f32⟩
  | .hbm, ⟨111, _⟩ => ⟨S1x128, .f32⟩
  | .hbm, ⟨112, _⟩ => ⟨S50000x128, .f32⟩
  | .hbm, ⟨113, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_12 : Ref sig .tc := ⟨.hbm, 95, rfl⟩
abbrev main_v68 : Ref sig .tc := ⟨.hbm, 96, rfl⟩
abbrev main_v69 : Ref sig .tc := ⟨.hbm, 97, rfl⟩
abbrev main_c_13 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_14 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.RefFrame.lean ====
/-
  The reference program has no kernel region: it is a straight line of host operations. Its run from any memory
  therefore ends, without a fault, with every result at the operations' composed term of the arguments and with
  the arguments untouched. Dropping what is said of the results leaves the frame claim.
-/
import proofs.«155228_j55379308315092_1_alg».proof.Defs
import proofs.«155228_j55379308315092_1_alg».proof.Proof.Gen.ReferenceIdeal
import proofs.«155228_j55379308315092_1_alg».proof.Proof.Gen.Pre_finite_inputs
import proofs.«155228_j55379308315092_1_alg».proof.Proof.Gen.ReferenceIdeal.Run
import proofs.«155228_j55379308315092_1_alg».proof.Proof.Gen.ReferenceIdeal.Read

noncomputable section

open Idealize.ShloMosaic Idealize.ShloMosaic.TcCoe Idealize.SL.Sem

namespace Cert.Proof.RefFrame

/-- The host reference terminates from every memory and leaves its nine argument arrays as they were. -/
theorem frame_ri : Cert.frame_ReferenceIdeal := fun m ρ _ =>
  (θ_run Cert.ReferenceIdeal.defs _ _).mono (fun _ h c => (h c).2.2) (Cert.ReferenceIdeal.Value.run (F := Ideal) m ρ)

end Cert.Proof.RefFrame

end
-- ==== Proof.KernelRun.lean ====
/-
  The kernel program is two grid regions among seven stretches of host operations. Run from any memory, every
  weakly fair execution ends without a fault, and at the end EVERY buffer that lives for the whole program holds
  what a pure fold through the program leaves in it: a host stretch rewrites the buffers its operations write, a
  region rewrites its output array by its blocks' write-backs and nothing else. The fold's last stage is named W9.

  The frame claim reads only the nine argument buffers out of that final state. Read here as well are the two
  result buffers, which is what a claim about the program's VALUE needs: the results end at W9's contents.
-/
import proofs.«155228_j55379308315092_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting; the two results end at the
    last stage of the fold through the program, and the nine arguments end as they were launched. -/
theorem run_last : θ_run defs (onTc (τ := τ) (main (F := F))) ⟨m, fun _ => 0, ρ⟩ (fun r => ∀ c : Dev nD,
      r.2.mem ((c.tc : Thread nD τ).loc main_v69) = W9 m ρ c (Proc.devRef .tc main_v69)
      ∧ r.2.mem ((c.tc : Thread nD τ).loc main_v70) = W9 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v69 (by decide)),
       h c _ (mem_uc main_v70 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.ValueRun

end
-- ==== Proof.Stretches.lean ====
/-
  Each stretch of host operations of the kernel program, read at the few buffers that matter later, from ANY contents
  Z of the buffers at the stretch's entry: a buffer the stretch computes is the stretch's operations applied to the
  entry contents of the buffers they read; a buffer no operation of the stretch writes keeps its entry contents.
  Stated per stretch, the facts are small, and the program's fold is their composition.
-/
import proofs.«155228_j55379308315092_1_alg».proof.Proof.Gen.KernelIdeal.Frame
import Idealize.ShloMosaic.Lib.StableHlo.Run
import Idealize.ShloMosaic.PureOps.Ideal

set_option maxRecDepth 65536

noncomputable section

namespace Cert.KernelIdeal.Stretches

open Cert.KernelIdeal Cert.KernelIdeal.Gen
open Idealize.ShloMosaic Idealize.ShloMosaic.TcCoe Idealize.ShloMosaic.StableHlo Idealize.SL.Sem

/-- No operation of the stretch writes the buffer: each operation's written buffer is another reference. -/
macro "kept_tac" : tactic => `(tactic| exact StableHlo.after_of_forall_not_mem (b := _) _ _ (List.forall_iff_forall_mem.mp (by
    simp only [hostOps0, hostOps0_1, hostOps0_2, hostOps1, hostOps1_1, hostOps1_2, hostOps2, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

variable (Z : Valuation τ sig (Elt Ideal))

/-! ## The call that guards the inverse square root of the degrees -/

theorem where_v15 : @Eq (FVec Ideal S50000 .f32) (StableHlo.after hostOps0_1 Z (Proc.devRef .tc main_v15))
    (select (Z (Proc.devRef .tc main_v13) : IVec S50000 1) (Z (Proc.devRef .tc main_v14) : FVec Ideal S50000 .f32) (broadcastInDim S50000 ![] bcast_S_S50000 (id (Z (Proc.devRef .tc main_cst_2) : FVec Ideal S_ .f32)))) := by
  after_results
  rfl
theorem keptWhere_v5 : StableHlo.after hostOps0_1 Z (Proc.devRef .tc main_v5) = Z (Proc.devRef .tc main_v5) := by kept_tac
theorem keptWhere_v6 : StableHlo.after hostOps0_1 Z (Proc.devRef .tc main_v6) = Z (Proc.devRef .tc main_v6) := by kept_tac
theorem keptWhere_v8 : StableHlo.after hostOps0_1 Z (Proc.devRef .tc main_v8) = Z (Proc.devRef .tc main_v8) := by kept_tac

/-! ## The edge weights normalised on both sides -/

theorem norm_v31 : @Eq (FVec Ideal S850000 .f32) (StableHlo.after hostOps0_2 Z (Proc.devRef .tc main_v31))
    (mulf (mulf (Host.gather gather_S50000_S850000x1_S850000_n_0_n_n_0_1_1 (Z (Proc.devRef .tc main_v15) : FVec Ideal S50000 .f32) (broadcastInDim S850000x1 ![0] bcast_S850000_S850000x1_0 (select (cmpi .slt (Z (Proc.devRef .tc main_v5) : IVec S850000 32) (broadcastInDim S850000 ![] bcast_S_S850000 (constantI S_ 32 0#32))) (addi (Z (Proc.devRef .tc main_v5) : IVec S850000 32) (broadcastInDim S850000 ![] bcast_S_S850000 (constantI S_ 32 50000#32))) (Z (Proc.devRef .tc main_v5) : IVec S850000 32)))) (Z (Proc.devRef .tc main_v8) : FVec Ideal S850000 .f32))
        (Host.gather gather_S50000_S850000x1_S850000_n_0_n_n_0_1_1 (Z (Proc.devRef .tc main_v15) : FVec Ideal S50000 .f32) (broadcastInDim S850000x1 ![0] bcast_S850000_S850000x1_0 (select (cmpi .slt (Z (Proc.devRef .tc main_v6) : IVec S850000 32) (broadcastInDim S850000 ![] bcast_S_S850000 (constantI S_ 32 0#32))) (addi (Z (Proc.devRef .tc main_v6) : IVec S850000 32) (broadcastInDim S850000 ![] bcast_S_S850000 (constantI S_ 32 50000#32))) (Z (Proc.devRef .tc main_v6) : IVec S850000 32))))) := by
  after_results_simp <;> rfl

/-! ## The first layer's aggregation and bias -/

theorem agg1_v48 : @Eq (FVec Ideal S50000x256 .f32) (StableHlo.after hostOps1 Z (Proc.devRef .tc main_v48))
    (addf (Host.scatterAdd scatter_S50000x256_S850000x1_S850000x256_1_0_0_1
          (broadcastInDim S50000x256 ![] bcast_S_S50000x256 (constant S_ .f32 0x00000000#32))
          (broadcastInDim S850000x1 ![0] bcast_S850000_S850000x1_0 (Z (Proc.devRef .tc main_v6) : IVec S850000 32))
          (mulf (Host.gather gather_S50000x256_S850000x1_S850000x256_1_0_n_n_0_1_1256 (Z (Proc.devRef .tc main_v32) : FVec Ideal S50000x256 .f32) (broadcastInDim S850000x1 ![0] bcast_S850000_S850000x1_0 (select (cmpi .slt (Z (Proc.devRef .tc main_v5) : IVec S850000 32) (broadcastInDim S850000 ![] bcast_S_S850000 (constantI S_ 32 0#32))) (addi (Z (Proc.devRef .tc main_v5) : IVec S850000 32) (broadcastInDim S850000 ![] bcast_S_S850000 (constantI S_ 32 50000#32))) (Z (Proc.devRef .tc main_v5) : IVec S850000 32))))
            (broadcastInDim S850000x256 ![0, 1] bcast_S850000x1_S850000x256_0_1 (broadcastInDim S850000x1 ![0] bcast_S850000_S850000x1_0 (Z (Proc.devRef .tc main_v31) : FVec Ideal S850000 .f32)))))
        (broadcastInDim S50000x256 ![0, 1] bcast_S1x256_S50000x256_0_1 (broadcastInDim S1x256 ![1] bcast_S256_S1x256_1 (Z (Proc.devRef .tc main_arg4) : FVec Ideal S256 .f32)))) := by
  after_results_simp <;> rfl
theorem keptAgg1_v5 : StableHlo.after hostOps1 Z (Proc.devRef .tc main_v5) = Z (Proc.devRef .tc main_v5) := by kept_tac
theorem keptAgg1_v6 : StableHlo.after hostOps1 Z (Proc.devRef .tc main_v6) = Z (Proc.devRef .tc main_v6) := by kept_tac
theorem keptAgg1_v31 : StableHlo.after hostOps1 Z (Proc.devRef .tc main_v31) = Z (Proc.devRef .tc main_v31) := by kept_tac
theorem keptAgg1_arg5 : StableHlo.after hostOps1 Z (Proc.devRef .tc main_arg5) = Z (Proc.devRef .tc main_arg5) := by kept_tac
theorem keptAgg1_arg6 : StableHlo.after hostOps1 Z (Proc.devRef .tc main_arg6) = Z (Proc.devRef .tc main_arg6) := by kept_tac
theorem keptAgg1_arg7 : StableHlo.after hostOps1 Z (Proc.devRef .tc main_arg7) = Z (Proc.devRef .tc main_arg7) := by kept_tac
theorem keptAgg1_arg8 : StableHlo.after hostOps1 Z (Proc.devRef .tc main_arg8) = Z (Proc.devRef .tc main_arg8) := by kept_tac

/-! ## The cut at zero -/

theorem relu_v49 : @Eq (FVec Ideal S50000x256 .f32) (StableHlo.after hostOps1_1 Z (Proc.devRef .tc main_v49))
    (maximumf (Z (Proc.devRef .tc main_v48) : FVec Ideal S50000x256 .f32) (broadcastInDim S50000x256 ![] bcast_S_S50000x256 (constant S_ .f32 0x00000000#32))) := by
  after_results
  rfl
theorem keptRelu_v5 : StableHlo.after hostOps1_1 Z (Proc.devRef .tc main_v5) = Z (Proc.devRef .tc main_v5) := by kept_tac
theorem keptRelu_v6 : StableHlo.after hostOps1_1 Z (Proc.devRef .tc main_v6) = Z (Proc.devRef .tc main_v6) := by kept_tac
theorem keptRelu_v31 : StableHlo.after hostOps1_1 Z (Proc.devRef .tc main_v31) = Z (Proc.devRef .tc main_v31) := by kept_tac
theorem keptRelu_arg5 : StableHlo.after hostOps1_1 Z (Proc.devRef .tc main_arg5) = Z (Proc.devRef .tc main_arg5) := by kept_tac
theorem keptRelu_arg6 : StableHlo.after hostOps1_1 Z (Proc.devRef .tc main_arg6) = Z (Proc.devRef .tc main_arg6) := by kept_tac
theorem keptRelu_arg7 : StableHlo.after hostOps1_1 Z (Proc.devRef .tc main_arg7) = Z (Proc.devRef .tc main_arg7) := by kept_tac
theorem keptRelu_arg8 : StableHlo.after hostOps1_1 Z (Proc.devRef .tc main_arg8) = Z (Proc.devRef .tc main_arg8) := by kept_tac

/-! ## The two head matrices side by side, the two biases end to end -/

theorem join_v50 : @Eq (FVec Ideal S256x256 .f32) (StableHlo.after hostOps1_2 Z (Proc.devRef .tc main_v50))
    (concatenate S256x256 1 [⟨S256x128, (Z (Proc.devRef .tc main_arg5) : FVec Ideal S256x128 .f32)⟩, ⟨S256x128, (Z (Proc.devRef .tc main_arg7) : FVec Ideal S256x128 .f32)⟩] concatenates_S256x128_S256x128_S256x256_d1) := by
  after_results_simp <;> rfl
theorem join_v51 : @Eq (FVec Ideal S256 .f32) (StableHlo.after hostOps1_2 Z (Proc.devRef .tc main_v51))
    (concatenate S256 0 [⟨S128, (Z (Proc.devRef .tc main_arg6) : FVec Ideal S128 .f32)⟩, ⟨S128, (Z (Proc.devRef .tc main_arg8) : FVec Ideal S128 .f32)⟩] concatenates_S128_S128_S256_d0) := by
  after_results_simp <;> rfl
theorem keptJoin_v5 : StableHlo.after hostOps1_2 Z (Proc.devRef .tc main_v5) = Z (Proc.devRef .tc main_v5) := by kept_tac
theorem keptJoin_v6 : StableHlo.after hostOps1_2 Z (Proc.devRef .tc main_v6) = Z (Proc.devRef .tc main_v6) := by kept_tac
theorem keptJoin_v31 : StableHlo.after hostOps1_2 Z (Proc.devRef .tc main_v31) = Z (Proc.devRef .tc main_v31) := by kept_tac
theorem keptJoin_v49 : StableHlo.after hostOps1_2 Z (Proc.devRef .tc main_v49) = Z (Proc.devRef .tc main_v49) := by kept_tac

end Cert.KernelIdeal.Stretches

end
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.LibColumns.lean ====
/-
  General lemmas for kernels that keep a per-row number as an [a, 1] column.

  * `broadcastTo_a1_ab_apply`: an [a, 1] column repeated along the rows of an [a, b] array reads, at (p, c), the column at p.
  * `keepdimsSum_apply`: a sum of an [a, b] array along its last axis kept as an [a, 1] column reads, at (p, u), the plain
    sum over k of the array at (p, k).
-/
import Idealize.ShloMosaic.Lib.ValueIdx
import Idealize.ShloMosaic.Lib.ValueLayout
import Idealize.ShloMosaic.Lib.Pipeline.Value
import Idealize.ShloMosaic.PureOps.Ideal.Laws
import proofs.«155228_j55379308315092_1_alg».proof.Proof.LibDenseRows

noncomputable section

open scoped BigOperators

namespace Cert.Columns

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along its last axis, kept as an [a, 1] column: at (p, u) the sum over k of the array at (p, k). -/
theorem keepdimsSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) :=
  (Cert.DenseRows.shapeCast_a_a1_apply _ hs p u).trans (Cert.DenseRows.rowSum_apply src acc h hφ hacc p)

end Cert.Columns

end
-- ==== Proof.LibPlainLayers.lean ====
/-
  General lemmas for kernels built of plain matrix products, bias rows and row normalisation, read at the exact
  (extended-real) instance, one entry at a time.

  * `plainMM_zero_apply`: an [M, K] by [K, N] product into a zero accumulator is at (p, j) the plain sum over k of
    left (p, k) times right (k, j); `plainMM_of_eq` is the same for any record of dimension numbers equal to the plain one.
  * `dense_relu_apply`: product, plus a [1, N] bias row repeated down the rows, then the maximum with zero.
  * `dense_bias_apply`: product plus the repeated bias row.
  * `l2norm_apply`: each row times the reciprocal square root of the larger of its sum of squares and a floor.
-/
import Idealize.ShloMosaic.Lib.ValueIdx
import Idealize.ShloMosaic.Lib.ValueLayout
import Idealize.ShloMosaic.Lib.Pipeline.Value
import Idealize.ShloMosaic.PureOps.Ideal.Laws
import proofs.«155228_j55379308315092_1_alg».proof.Proof.LibDenseRows
import proofs.«155228_j55379308315092_1_alg».proof.Proof.LibColumns

noncomputable section

open scoped BigOperators

namespace Cert.PlainLayers

open Idealize.ShloMosaic Idealize.ShloMosaic.ValueIdx

variable {M K N : ℕ}

/-! ## The operand indices of a plain product -/

theorem plainL_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plainL_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plainR_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plainR_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain product into a zero accumulator at (p, j): the sum over k of left (p, k) times right (k, j). -/
theorem plainMM_zero_apply {φ₁ φ₂ : FTy} (prec : Option ContractPrecision) (h : FVec Ideal ⟨2, ![M, K]⟩ φ₁) (w : FVec Ideal ⟨2, ![K, N]⟩ φ₂)
    (p : Fin M) (j : Fin N) :
    FloatOps.matmul (DotDims.plain M K N) prec h w (constant ⟨2, ![M, N]⟩ .f32 0x00000000#32) (ix2 p j)
      = ∑ k : Fin K, h (ix2 p k) * w (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plainL_0 _ _
      | ⟨1, _⟩ => exact (plainL_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plainR_0 _ _).trans hk
      | ⟨1, _⟩ => exact plainR_1 _ _)
  rw [el, er]

/-- The same for any record of dimension numbers that is the plain one. -/
theorem plainMM_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (p : Fin M) (j : Fin N) :
    FloatOps.matmul D prec h w (constant ⟨2, ![M, N]⟩ .f32 0x00000000#32) (ix2 p j) = ∑ k : Fin K, h (ix2 p k) * w (ix2 k j) := by
  subst hD; exact plainMM_zero_apply prec h w p j

/-- A plain product into any accumulator at (p, j): the accumulator there plus the sum. -/
theorem plainMM_acc_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (acc : FVec Ideal ⟨2, ![M, N]⟩ .f32)
    (p : Fin M) (j : Fin N) :
    FloatOps.matmul D prec h w acc (ix2 p j) = acc (ix2 p j) + ∑ k : Fin K, h (ix2 p k) * w (ix2 k j) := by
  subst hD
  rw [Ideal.matmul_apply, ← plainMM_zero_apply prec h w p j, Ideal.matmul_constant_zero_apply]

/-- Product plus a [1, N] bias row repeated down the rows, at (p, j). -/
theorem dense_bias_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    addf (matmul D prec h w (constant ⟨2, ![M, N]⟩ .f32 0x00000000#32)) (broadcastTo ⟨2, ![M, N]⟩ (shapeCast ⟨2, ![1, N]⟩ b hc) hb) (ix2 p j)
      = (∑ k : Fin K, h (ix2 p k) * w (ix2 k j)) + b (ix2 (0 : Fin 1) j) :=
  congrArg₂ (· + ·) (plainMM_of_eq D hD prec h w p j)
    ((broadcastTo_1b_ab_apply _ hb p j).trans (congrFun (shapeCast_self b hc) _))

/-- Product, bias row, maximum with zero, at (p, j). -/
theorem dense_relu_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    maximumf (addf (matmul D prec h w (constant ⟨2, ![M, N]⟩ .f32 0x00000000#32)) (broadcastTo ⟨2, ![M, N]⟩ (shapeCast ⟨2, ![1, N]⟩ b hc) hb))
        (broadcast ⟨2, ![M, N]⟩ (Scalar.ofBits (F := Ideal) .f32 0x00000000#32)) (ix2 p j)
      = max ((∑ k : Fin K, h (ix2 p k) * w (ix2 k j)) + b (ix2 (0 : Fin 1) j)) 0 :=
  congrArg₂ max (dense_bias_apply D hD prec h w b hc hb p j) Ideal.ofBits_zero_f32

/-- Each row of an [A, B] array times the reciprocal square root of the larger of the row's sum of squares and a floor,
    at (p, q). -/
theorem l2norm_apply {A B : ℕ} (P : FVec Ideal ⟨2, ![A, B]⟩ .f32) (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (p : Fin A) (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = P (ix2 p q) * FloatOps.rsqrt (F := Ideal) (φ := .f32) (max (∑ k : Fin B, P (ix2 p k) * P (ix2 p k)) (Ideal.ofBits .f32 fl)) := by
  refine congrArg (P (ix2 p q) * ·) ?_
  refine (Cert.Columns.broadcastTo_a1_ab_apply _ hbc p q).trans ?_
  exact congrArg (fun t => FloatOps.rsqrt (F := Ideal) (φ := .f32) (max t (Ideal.ofBits .f32 fl)))
    (Cert.Columns.keepdimsSum_apply (mulf P P) acc hr hφ hacc hs p 0)

/-- The same, the array's entries of row p given by a formula `R`. -/
theorem l2norm_apply_of {A B : ℕ} (P : FVec Ideal ⟨2, ![A, B]⟩ .f32) (R : Fin B → EReal) (p : Fin A) (hP : ∀ e, P (ix2 p e) = R e)
    (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = R q * FloatOps.rsqrt (F := Ideal) (φ := .f32) (max (∑ k : Fin B, R k * R k) (Ideal.ofBits .f32 fl)) := by
  rw [l2norm_apply P acc hr hφ hacc hs fl hbc p q]
  simp only [hP]

/-- A sum of an [A, 1, B] array along its leading axis, at (u, e): the sum over s of the array at (s, u, e). -/
theorem leadSum_apply {A B : ℕ} {φ : FTy} (src : FVec Ideal ⟨3, ![A, 1, B]⟩ φ) (acc : BitVec φ.bits)
    (h : (⟨3, ![A, 1, B]⟩ : Shape).Reduces [0] ⟨2, ![1, B]⟩) (hφ : FKind.Formats φ) (hacc : acc = FKind.add.neutral φ hφ)
    (u : Fin 1) (e : Fin B) :
    multiReduction .add [0] ⟨2, ![1, B]⟩ src acc h hφ hacc (ix2 u e) = ∑ s : Fin A, src (ix3 s u e) := by
  refine (Ideal.multiReduction_add_single src acc h hφ hacc (ix2 u e)).trans ?_
  refine Finset.sum_congr rfl fun k _ => congrArg src (funext fun c => Fin.ext ?_)
  rw [h.lift_val]
  match c with
  | ⟨0, _⟩ => rfl
  | ⟨1, _⟩ => rfl
  | ⟨2, _⟩ => rfl

end Cert.PlainLayers

end
-- ==== Proof.LibProduct.lean ====
/-
  The product of two matrices over the extended reals, as ONE function of the whole arrays: entry (p, j) is the sum
  over k of left (p, k) times right (k, j). No order of summation is fixed (a finite sum in a commutative monoid),
  and no finiteness is asked: the extended reals form a commutative semiring under + and ·, which is all a sum of
  products uses.

  Row p of the product depends on row p of the left factor only. That is why a product computed a band of rows at a
  time is the same array as the product computed at once.
-/
import Idealize.ShloMosaic.Lib.ValueIdx
import Idealize.ShloMosaic.PureOps.Ideal.Laws
import proofs.«155228_j55379308315092_1_alg».proof.Proof.LibPlainLayers

noncomputable section

open scoped BigOperators

namespace Cert.Product

open Idealize.ShloMosaic Idealize.ShloMosaic.ValueIdx

variable {M K N : ℕ}

/-- The whole product: entry i is the sum over k of left (i₀, k) · right (k, i₁). -/
def mm (a : FVec Ideal ⟨2, ![M, K]⟩ .f32) (b : FVec Ideal ⟨2, ![K, N]⟩ .f32) : FVec Ideal ⟨2, ![M, N]⟩ .f32 :=
  fun i => ∑ k : Fin K, a (ix2 (i 0) k) * b (ix2 k (i 1))

theorem mm_apply (a : FVec Ideal ⟨2, ![M, K]⟩ .f32) (b : FVec Ideal ⟨2, ![K, N]⟩ .f32) (p : Fin M) (j : Fin N) :
    mm a b (ix2 p j) = ∑ k : Fin K, a (ix2 p k) * b (ix2 k j) := rfl

/-- A matrix unit's product into a zero accumulator, the factors first narrowed to a shorter float format (the
    identity on extended reals), is the whole product of the two blocks it was given. -/
theorem narrowed_matmul_eq_mm (D : DotDims ⟨2, ![M, K]⟩ ⟨2, ![K, N]⟩ ⟨2, ![M, N]⟩) (hD : D = DotDims.plain M K N)
    (h1 : FTy.bits .bf16 < FTy.bits .f32)
    (a : FVec Ideal ⟨2, ![M, K]⟩ .f32) (b : FVec Ideal ⟨2, ![K, N]⟩ .f32) :
    (matmul D none (truncf .bf16 a h1) (truncf .bf16 b h1) (constant ⟨2, ![M, N]⟩ .f32 0x00000000#32) : FVec Ideal ⟨2, ![M, N]⟩ .f32)
      = mm a b := by
  funext i
  obtain ⟨p, j, rfl⟩ : ∃ (p : Fin M) (j : Fin N), i = ix2 p j := ⟨i 0, i 1, eq_ix2 i⟩
  rw [mm_apply]
  exact Cert.PlainLayers.plainMM_of_eq D hD none (truncf .bf16 a h1) (truncf .bf16 b h1) p j

/-- The host's product of an [M, K] by a [K, N] array is the same whole product: at the exact instance it too is a
    plain sum of products from zero. -/
theorem hostDot_eq_mm (D : DotDims ⟨2, ![M, K]⟩ ⟨2, ![K, N]⟩ ⟨2, ![M, N]⟩) (hD : D = DotDims.plain M K N)
    (a : FVec Ideal ⟨2, ![M, K]⟩ .f32) (b : FVec Ideal ⟨2, ![K, N]⟩ .f32) :
    (Host.dotGeneral (F := Ideal) D none a b : FVec Ideal ⟨2, ![M, N]⟩ .f32) = mm a b := by
  funext i
  obtain ⟨p, j, rfl⟩ : ∃ (p : Fin M) (j : Fin N), i = ix2 p j := ⟨i 0, i 1, eq_ix2 i⟩
  rw [mm_apply, ← Cert.PlainLayers.plainMM_of_eq D hD none a b p j, Ideal.matmul_constant_zero_apply]
  simp only [Host.dotGeneral]
  rw [Ideal.dotGeneral_apply]

end Cert.Product

end
-- ==== Proof.Blocks.lean ====
/-
  Each of the two grid regions multiplies an array of 50000 rows by a 256 x 256 matrix, a band of 5000 rows per grid
  point: the point loads its band of the left array and the whole right matrix, multiplies them, and stores the
  product as its band of the output array. Because row p of a product depends on row p of the left factor only, the
  band a point writes is that band of the product of the WHOLE arrays; the ten bands tile the output; so after the
  region the output array is the whole product, as one function of the two arrays the region was entered with.

  The statements are made for any contents V of the buffers at the region's entry, so that each serves its region
  wherever in the program that region stands.
-/
import proofs.«155228_j55379308315092_1_alg».proof.Proof.Gen.KernelIdeal.Frame
import proofs.«155228_j55379308315092_1_alg».proof.Proof.LibProduct
import Idealize.ShloMosaic.Lib.Pipeline.Value
import Idealize.ShloMosaic.Lib.ValueIdx

set_option maxRecDepth 16384

noncomputable section

open scoped BigOperators

namespace Cert.KernelIdeal.Blocks

open Cert.KernelIdeal Cert.KernelIdeal.Gen Cert.Product
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Both regions' matrix unit contracts the left factor's columns against the right factor's rows. -/
theorem dot_plain : dot_S5000x256_S256x256_S5000x256_1_0_0_1_n_n = DotDims.plain 5000 256 256 := rfl

/-! ## Region 0: the array written is the whole product -/

/-- What the region's single store writes is the product of the two blocks it loaded. -/
theorem pay0_eq (x0 : Vec Ideal S5000x256 .f32) (x1 : Vec Ideal S256x256 .f32) : k0_pay1 x0 x1 = mm x0 x1 := by
  exact narrowed_matmul_eq_mm _ dot_plain _ x0 x1

/-- The printed index maps, decided once over the ten grid points: the left factor's band of rows moves with the
    output's band, the right factor is always the whole matrix, and the output's band number is its point's. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every band of 5000 rows is some point's. -/
theorem idx_onto0 : ∀ q0 : Fin 10, ∃ t : Fin cfg0.N, win0_2.index t = ![q0.val, 0] :=
  (by decide +kernel : ∀ q0 : Fin 10, ∃ t : Fin grid0.N, win0_2.index t = ![q0.val, 0])

/-- What point t writes back is band t of the whole product: row p of the band is row (5000·t + p) of the left
    factor against the whole right factor, and a product's row depends on that row of the left factor alone. -/
theorem flushed0_eq (c : Dev nD) (t : Fin cfg0.N) :
    (dat0 V c).flushed 2 t = ((cfg0.win 2).blk t).view.read (Elt Ideal) (mm (V c main_arg0) (V c main_arg3)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x256) hz]
  rw [pay0_eq]
  obtain ⟨e0, e1, e2, e3, e4, -⟩ := idx_facts0 t
  funext j
  have h0 : ∀ k : Fin 256, ((cfg0.win 0).blk t).view.emb (ix2 (j 0) k) = ix2 ((((cfg0.win 2).blk t).view.emb j) 0) k := by
    intro k; funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have h1 : ∀ k : Fin 256, ((cfg0.win 1).blk t).view.emb (ix2 k (j 1)) = ix2 k ((((cfg0.win 2).blk t).view.emb j) 1) := by
    intro k; funext a; apply Fin.ext
    match a with
    | ⟨0, _⟩ => show win0_1.index t (0 : Fin 2) * 256 + 1 * k.val = k.val; omega
    | ⟨1, _⟩ => show win0_1.index t (1 : Fin 2) * 256 + 1 * (j 1).val = win0_2.index t (1 : Fin 2) * 256 + 1 * (j 1).val; omega
  show mm (M := 5000) (K := 256) (N := 256) (fun y => V c main_arg0 (((cfg0.win 0).blk t).view.emb y)) (fun y => V c main_arg3 (((cfg0.win 1).blk t).view.emb y)) j
    = mm (M := 50000) (K := 256) (N := 256) (V c main_arg0) (V c main_arg3) (((cfg0.win 2).blk t).view.emb j)
  unfold mm
  refine Finset.sum_congr rfl fun k _ => ?_
  dsimp only
  rw [h0 k, h1 k]
  rfl

/-- An index of the output array is in point t's band iff each coordinate is in the band's range on its axis. -/
theorem mem_blk0 (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v32).slice (win0_2.rect t)).set ↔ _
  rw [View.set_slice_whole, Rect.mem_set_unit]
  exact Iff.rfl

/-- The ten bands tile the array: row r lies in band r / 5000. -/
theorem cover0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- The region's output array, after all ten points have written back, is the whole product of the two input
    arrays as the region found them. -/
theorem final0 (c : Dev nD) : (dat0 V c).arrAt 2 cfg0.N = mm (V c main_arg0) (V c main_arg3) :=
  (dat0 V c).arrAt_eq_of_cover 2 (mm (V c main_arg0) (V c main_arg3)) (fun t _ => flushed0_eq V c t) (cover0)

/-! ## Region 1: the array written is the whole product -/

/-- What the region's single store writes is the product of the two blocks it loaded. -/
theorem pay1_eq (x0 : Vec Ideal S5000x256 .f32) (x1 : Vec Ideal S256x256 .f32) : k1_pay1 x0 x1 = mm x0 x1 := by
  unfold k1_pay1
  rw [shapeCast_self, shapeCast_self]
  exact narrowed_matmul_eq_mm _ dot_plain _ x0 x1

/-- The printed index maps, decided once over the ten grid points: the left factor's band of rows moves with the
    output's band, the right factor is always the whole matrix, and the output's band number is its point's. -/
theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every band of 5000 rows is some point's. -/
theorem idx_onto1 : ∀ q0 : Fin 10, ∃ t : Fin cfg1.N, win1_2.index t = ![q0.val, 0] :=
  (by decide +kernel : ∀ q0 : Fin 10, ∃ t : Fin grid1.N, win1_2.index t = ![q0.val, 0])

/-- What point t writes back is band t of the whole product: row p of the band is row (5000·t + p) of the left
    factor against the whole right factor, and a product's row depends on that row of the left factor alone. -/
theorem flushed1_eq (c : Dev nD) (t : Fin cfg1.N) :
    (dat1 V c).flushed 2 t = ((cfg1.win 2).blk t).view.read (Elt Ideal) (mm (V c main_v49) (V c main_v50)) := by
  show (cfg1.win 2).cut (grid1.coords t) ((dat1 V c).after 2 t) = _
  rw [after1_2]
  unfold out1_2
  rw [View.canon_unit_zero hz]
  simp only [View.ld_unit_zero (S := S5000x256) hz, View.ld_unit_zero (S := S256x256) hz]
  rw [pay1_eq]
  obtain ⟨e0, e1, e2, e3, e4, -⟩ := idx_facts1 t
  funext j
  have h0 : ∀ k : Fin 256, ((cfg1.win 0).blk t).view.emb (ix2 (j 0) k) = ix2 ((((cfg1.win 2).blk t).view.emb j) 0) k := by
    intro k; funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 256 + 1 * k.val = k.val; omega
  have h1 : ∀ k : Fin 256, ((cfg1.win 1).blk t).view.emb (ix2 k (j 1)) = ix2 k ((((cfg1.win 2).blk t).view.emb j) 1) := by
    intro k; funext a; apply Fin.ext
    match a with
    | ⟨0, _⟩ => show win1_1.index t (0 : Fin 2) * 256 + 1 * k.val = k.val; omega
    | ⟨1, _⟩ => show win1_1.index t (1 : Fin 2) * 256 + 1 * (j 1).val = win1_2.index t (1 : Fin 2) * 256 + 1 * (j 1).val; omega
  show mm (M := 5000) (K := 256) (N := 256) (fun y => V c main_v49 (((cfg1.win 0).blk t).view.emb y)) (fun y => V c main_v50 (((cfg1.win 1).blk t).view.emb y)) j
    = mm (M := 50000) (K := 256) (N := 256) (V c main_v49) (V c main_v50) (((cfg1.win 2).blk t).view.emb j)
  unfold mm
  refine Finset.sum_congr rfl fun k _ => ?_
  dsimp only
  rw [h0 k, h1 k]
  rfl

/-- An index of the output array is in point t's band iff each coordinate is in the band's range on its axis. -/
theorem mem_blk1 (t : Fin cfg1.N) (i : S50000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v52).slice (win1_2.rect t)).set ↔ _
  rw [View.set_slice_whole, Rect.mem_set_unit]
  exact Iff.rfl

/-- The ten bands tile the array: row r lies in band r / 5000. -/
theorem cover1 (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  obtain ⟨t, ht⟩ := idx_onto1 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 256 ≤ (i 1).val ∧ (i 1).val < win1_2.index t (1 : Fin 2) * 256 + 256; omega

/-- The region's output array, after all ten points have written back, is the whole product of the two input
    arrays as the region found them. -/
theorem final1 (c : Dev nD) : (dat1 V c).arrAt 2 cfg1.N = mm (V c main_v49) (V c main_v50) :=
  (dat1 V c).arrAt_eq_of_cover 2 (mm (V c main_v49) (V c main_v50)) (fun t _ => flushed1_eq V c t) (cover1)

end Cert.KernelIdeal.Blocks

end
-- ==== Proof.Boundaries.lean ====
/-
  The kernel program's buffers, followed from the launch to the second region's exit. Up to the first region the
  kernel program and the reference are the same operations in the same order: the edge lists with one self-loop per
  node appended, the degrees, their inverse square roots, and the edge weights normalised on both sides. The first
  region's product of the node features with the first weight matrix is the reference's product (both are the whole
  product, as plain sums). From there to the second region the two programs again run the same operations: gather,
  scale, add into target rows, add the bias, cut at zero. So at each boundary the buffers that matter hold what the
  reference's own stages hold, as functions of the nine arguments. The second region's output is the whole product
  of the hidden layer with the two head matrices laid side by side.

  A buffer that a stretch of host operations does not write, and an array that a region does not own, is carried
  across unchanged; that is all that is said of the index lists and the edge weights after they are made.
-/
import proofs.«155228_j55379308315092_1_alg».proof.Proof.Gen.KernelIdeal.Frame
import proofs.«155228_j55379308315092_1_alg».proof.Proof.Gen.ReferenceIdeal.Read
import proofs.«155228_j55379308315092_1_alg».proof.Proof.Stretches
import proofs.«155228_j55379308315092_1_alg».proof.Proof.Blocks
import proofs.«155228_j55379308315092_1_alg».proof.Proof.LibProduct
import Idealize.ShloMosaic.Lib.StableHlo.Run

set_option maxRecDepth 65536

noncomputable section

namespace Cert.KernelIdeal.Boundaries

open Cert.KernelIdeal Cert.KernelIdeal.Gen Cert.Product
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## The edge lists, the edge weights with the self-loops' ones, the degrees' test and inverse root -/

theorem atW1_v5 : W1 m ρ c (Proc.devRef .tc main_v5) = Cert.ReferenceIdeal.Read.val_main_v5 (F := Ideal) (m ((c : Thread nD τ).loc main_arg1)) := by
  after_results_simp <;> rfl
theorem atW1_v6 : W1 m ρ c (Proc.devRef .tc main_v6) = Cert.ReferenceIdeal.Read.val_main_v6 (F := Ideal) (m ((c : Thread nD τ).loc main_arg1)) := by
  after_results_simp <;> rfl
theorem atW1_v8 : W1 m ρ c (Proc.devRef .tc main_v8) = Cert.ReferenceIdeal.Read.val_main_v8 (F := Ideal) (m ((c : Thread nD τ).loc main_arg2)) := by
  after_results_simp <;> rfl
theorem atW1_v13 : W1 m ρ c (Proc.devRef .tc main_v13) = Cert.ReferenceIdeal.Read.val_main_v13 (F := Ideal) (m ((c : Thread nD τ).loc main_arg1)) (m ((c : Thread nD τ).loc main_arg2)) := by
  after_results_simp <;> rfl
theorem atW1_v14 : W1 m ρ c (Proc.devRef .tc main_v14) = Cert.ReferenceIdeal.Read.val_main_v14 (F := Ideal) (m ((c : Thread nD τ).loc main_arg1)) (m ((c : Thread nD τ).loc main_arg2)) := by
  after_results_simp <;> rfl
theorem atW1_cst_2 : W1 m ρ c (Proc.devRef .tc main_cst_2) = Cert.ReferenceIdeal.Read.val_main_cst_2 (F := Ideal) := by
  after_results_simp <;> rfl

/-! ## The guarded inverse root -/

theorem atW2_v15 : W2 m ρ c (Proc.devRef .tc main_v15) = Cert.ReferenceIdeal.Read.val_main_v15 (F := Ideal) (m ((c : Thread nD τ).loc main_arg1)) (m ((c : Thread nD τ).loc main_arg2)) :=
  (Stretches.where_v15 (W1 m ρ c)).trans (by rw [atW1_v13, atW1_v14, atW1_cst_2]; rfl)
theorem atW2_v5 : W2 m ρ c (Proc.devRef .tc main_v5) = Cert.ReferenceIdeal.Read.val_main_v5 (F := Ideal) (m ((c : Thread nD τ).loc main_arg1)) :=
  (Stretches.keptWhere_v5 (W1 m ρ c)).trans (atW1_v5 m ρ c)
theorem atW2_v6 : W2 m ρ c (Proc.devRef .tc main_v6) = Cert.ReferenceIdeal.Read.val_main_v6 (F := Ideal) (m ((c : Thread nD τ).loc main_arg1)) :=
  (Stretches.keptWhere_v6 (W1 m ρ c)).trans (atW1_v6 m ρ c)
theorem atW2_v8 : W2 m ρ c (Proc.devRef .tc main_v8) = Cert.ReferenceIdeal.Read.val_main_v8 (F := Ideal) (m ((c : Thread nD τ).loc main_arg2)) :=
  (Stretches.keptWhere_v8 (W1 m ρ c)).trans (atW1_v8 m ρ c)

/-! ## At the first region's entry -/

theorem atR0_v31 : W3 m ρ c (Proc.devRef .tc main_v31) = Cert.ReferenceIdeal.Read.val_main_v31 (F := Ideal) (m ((c : Thread nD τ).loc main_arg1)) (m ((c : Thread nD τ).loc main_arg2)) :=
  (Stretches.norm_v31 (W2 m ρ c)).trans (by rw [atW2_v15, atW2_v5, atW2_v6, atW2_v8]; rfl)
theorem atR0_v5 : W3 m ρ c (Proc.devRef .tc main_v5) = Cert.ReferenceIdeal.Read.val_main_v5 (F := Ideal) (m ((c : Thread nD τ).loc main_arg1)) := by
  after_results_simp <;> rfl
theorem atR0_v6 : W3 m ρ c (Proc.devRef .tc main_v6) = Cert.ReferenceIdeal.Read.val_main_v6 (F := Ideal) (m ((c : Thread nD τ).loc main_arg1)) := by
  after_results_simp <;> rfl
theorem atR0_arg0 : W3 m ρ c (Proc.devRef .tc main_arg0) = (m ((c : Thread nD τ).loc main_arg0)) := by
  after_results_simp <;> rfl
theorem atR0_arg3 : W3 m ρ c (Proc.devRef .tc main_arg3) = (m ((c : Thread nD τ).loc main_arg3)) := by
  after_results_simp <;> rfl
theorem atR0_arg4 : W3 m ρ c (Proc.devRef .tc main_arg4) = (m ((c : Thread nD τ).loc main_arg4)) := by
  after_results_simp <;> rfl
theorem atR0_arg5 : W3 m ρ c (Proc.devRef .tc main_arg5) = (m ((c : Thread nD τ).loc main_arg5)) := by
  after_results_simp <;> rfl
theorem atR0_arg6 : W3 m ρ c (Proc.devRef .tc main_arg6) = (m ((c : Thread nD τ).loc main_arg6)) := by
  after_results_simp <;> rfl
theorem atR0_arg7 : W3 m ρ c (Proc.devRef .tc main_arg7) = (m ((c : Thread nD τ).loc main_arg7)) := by
  after_results_simp <;> rfl
theorem atR0_arg8 : W3 m ρ c (Proc.devRef .tc main_arg8) = (m ((c : Thread nD τ).loc main_arg8)) := by
  after_results_simp <;> rfl

/-! ## After the first region -/

/-- The first region leaves the product of the node features with the first weight matrix. -/
theorem afterR0_v32 : W4 m ρ c (Proc.devRef .tc main_v32) = mm (m ((c : Thread nD τ).loc main_arg0)) (m ((c : Thread nD τ).loc main_arg3)) := by
  refine (W4_arr m ρ c 2).trans ((Blocks.final0 (V3 m ρ) c).trans ?_)
  show mm (W3 m ρ c (Proc.devRef .tc main_arg0)) (W3 m ρ c (Proc.devRef .tc main_arg3)) = _
  rw [atR0_arg0, atR0_arg3]
theorem afterR0_v5 : W4 m ρ c (Proc.devRef .tc main_v5) = Cert.ReferenceIdeal.Read.val_main_v5 (F := Ideal) (m ((c : Thread nD τ).loc main_arg1)) :=
  (W4_of_ne m ρ c main_v5 (by decide)).trans (atR0_v5 m ρ c)
theorem afterR0_v6 : W4 m ρ c (Proc.devRef .tc main_v6) = Cert.ReferenceIdeal.Read.val_main_v6 (F := Ideal) (m ((c : Thread nD τ).loc main_arg1)) :=
  (W4_of_ne m ρ c main_v6 (by decide)).trans (atR0_v6 m ρ c)
theorem afterR0_v31 : W4 m ρ c (Proc.devRef .tc main_v31) = Cert.ReferenceIdeal.Read.val_main_v31 (F := Ideal) (m ((c : Thread nD τ).loc main_arg1)) (m ((c : Thread nD τ).loc main_arg2)) :=
  (W4_of_ne m ρ c main_v31 (by decide)).trans (atR0_v31 m ρ c)
theorem afterR0_arg4 : W4 m ρ c (Proc.devRef .tc main_arg4) = (m ((c : Thread nD τ).loc main_arg4)) :=
  (W4_of_ne m ρ c main_arg4 (by decide)).trans (atR0_arg4 m ρ c)
theorem afterR0_arg5 : W4 m ρ c (Proc.devRef .tc main_arg5) = (m ((c : Thread nD τ).loc main_arg5)) :=
  (W4_of_ne m ρ c main_arg5 (by decide)).trans (atR0_arg5 m ρ c)
theorem afterR0_arg6 : W4 m ρ c (Proc.devRef .tc main_arg6) = (m ((c : Thread nD τ).loc main_arg6)) :=
  (W4_of_ne m ρ c main_arg6 (by decide)).trans (atR0_arg6 m ρ c)
theorem afterR0_arg7 : W4 m ρ c (Proc.devRef .tc main_arg7) = (m ((c : Thread nD τ).loc main_arg7)) :=
  (W4_of_ne m ρ c main_arg7 (by decide)).trans (atR0_arg7 m ρ c)
theorem afterR0_arg8 : W4 m ρ c (Proc.devRef .tc main_arg8) = (m ((c : Thread nD τ).loc main_arg8)) :=
  (W4_of_ne m ρ c main_arg8 (by decide)).trans (atR0_arg8 m ρ c)

/-! ## The first layer: aggregation and bias, then the cut at zero -/

theorem atW5_v48 : W5 m ρ c (Proc.devRef .tc main_v48) = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (Stretches.agg1_v48 (W4 m ρ c)).trans (by
    rw [afterR0_v32, afterR0_v5, afterR0_v6, afterR0_v31, afterR0_arg4,
      ← hostDot_eq_mm Cert.ReferenceIdeal.dot_S50000x256_S256x256_S50000x256_1_0_0_1_n_n rfl]
    rfl)
theorem atW5_v5 : W5 m ρ c (Proc.devRef .tc main_v5) = Cert.ReferenceIdeal.Read.val_main_v5 (F := Ideal) (m ((c : Thread nD τ).loc main_arg1)) :=
  (Stretches.keptAgg1_v5 (W4 m ρ c)).trans (afterR0_v5 m ρ c)
theorem atW5_v6 : W5 m ρ c (Proc.devRef .tc main_v6) = Cert.ReferenceIdeal.Read.val_main_v6 (F := Ideal) (m ((c : Thread nD τ).loc main_arg1)) :=
  (Stretches.keptAgg1_v6 (W4 m ρ c)).trans (afterR0_v6 m ρ c)
theorem atW5_v31 : W5 m ρ c (Proc.devRef .tc main_v31) = Cert.ReferenceIdeal.Read.val_main_v31 (F := Ideal) (m ((c : Thread nD τ).loc main_arg1)) (m ((c : Thread nD τ).loc main_arg2)) :=
  (Stretches.keptAgg1_v31 (W4 m ρ c)).trans (afterR0_v31 m ρ c)
theorem atW5_arg5 : W5 m ρ c (Proc.devRef .tc main_arg5) = (m ((c : Thread nD τ).loc main_arg5)) :=
  (Stretches.keptAgg1_arg5 (W4 m ρ c)).trans (afterR0_arg5 m ρ c)
theorem atW5_arg6 : W5 m ρ c (Proc.devRef .tc main_arg6) = (m ((c : Thread nD τ).loc main_arg6)) :=
  (Stretches.keptAgg1_arg6 (W4 m ρ c)).trans (afterR0_arg6 m ρ c)
theorem atW5_arg7 : W5 m ρ c (Proc.devRef .tc main_arg7) = (m ((c : Thread nD τ).loc main_arg7)) :=
  (Stretches.keptAgg1_arg7 (W4 m ρ c)).trans (afterR0_arg7 m ρ c)
theorem atW5_arg8 : W5 m ρ c (Proc.devRef .tc main_arg8) = (m ((c : Thread nD τ).loc main_arg8)) :=
  (Stretches.keptAgg1_arg8 (W4 m ρ c)).trans (afterR0_arg8 m ρ c)

theorem atW6_v49 : W6 m ρ c (Proc.devRef .tc main_v49) = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (Stretches.relu_v49 (W5 m ρ c)).trans (by rw [atW5_v48]; rfl)
theorem atW6_v5 : W6 m ρ c (Proc.devRef .tc main_v5) = Cert.ReferenceIdeal.Read.val_main_v5 (F := Ideal) (m ((c : Thread nD τ).loc main_arg1)) :=
  (Stretches.keptRelu_v5 (W5 m ρ c)).trans (atW5_v5 m ρ c)
theorem atW6_v6 : W6 m ρ c (Proc.devRef .tc main_v6) = Cert.ReferenceIdeal.Read.val_main_v6 (F := Ideal) (m ((c : Thread nD τ).loc main_arg1)) :=
  (Stretches.keptRelu_v6 (W5 m ρ c)).trans (atW5_v6 m ρ c)
theorem atW6_v31 : W6 m ρ c (Proc.devRef .tc main_v31) = Cert.ReferenceIdeal.Read.val_main_v31 (F := Ideal) (m ((c : Thread nD τ).loc main_arg1)) (m ((c : Thread nD τ).loc main_arg2)) :=
  (Stretches.keptRelu_v31 (W5 m ρ c)).trans (atW5_v31 m ρ c)
theorem atW6_arg5 : W6 m ρ c (Proc.devRef .tc main_arg5) = (m ((c : Thread nD τ).loc main_arg5)) :=
  (Stretches.keptRelu_arg5 (W5 m ρ c)).trans (atW5_arg5 m ρ c)
theorem atW6_arg6 : W6 m ρ c (Proc.devRef .tc main_arg6) = (m ((c : Thread nD τ).loc main_arg6)) :=
  (Stretches.keptRelu_arg6 (W5 m ρ c)).trans (atW5_arg6 m ρ c)
theorem atW6_arg7 : W6 m ρ c (Proc.devRef .tc main_arg7) = (m ((c : Thread nD τ).loc main_arg7)) :=
  (Stretches.keptRelu_arg7 (W5 m ρ c)).trans (atW5_arg7 m ρ c)
theorem atW6_arg8 : W6 m ρ c (Proc.devRef .tc main_arg8) = (m ((c : Thread nD τ).loc main_arg8)) :=
  (Stretches.keptRelu_arg8 (W5 m ρ c)).trans (atW5_arg8 m ρ c)

/-! ## At the second region's entry -/

theorem atR1_v50 : W7 m ρ c (Proc.devRef .tc main_v50) = concatenate S256x256 1 [⟨S256x128, (m ((c : Thread nD τ).loc main_arg5))⟩, ⟨S256x128, (m ((c : Thread nD τ).loc main_arg7))⟩] concatenates_S256x128_S256x128_S256x256_d1 :=
  (Stretches.join_v50 (W6 m ρ c)).trans (by rw [atW6_arg5, atW6_arg7])
theorem atR1_v51 : W7 m ρ c (Proc.devRef .tc main_v51) = concatenate S256 0 [⟨S128, (m ((c : Thread nD τ).loc main_arg6))⟩, ⟨S128, (m ((c : Thread nD τ).loc main_arg8))⟩] concatenates_S128_S128_S256_d0 :=
  (Stretches.join_v51 (W6 m ρ c)).trans (by rw [atW6_arg6, atW6_arg8])
theorem atR1_v5 : W7 m ρ c (Proc.devRef .tc main_v5) = Cert.ReferenceIdeal.Read.val_main_v5 (F := Ideal) (m ((c : Thread nD τ).loc main_arg1)) :=
  (Stretches.keptJoin_v5 (W6 m ρ c)).trans (atW6_v5 m ρ c)
theorem atR1_v6 : W7 m ρ c (Proc.devRef .tc main_v6) = Cert.ReferenceIdeal.Read.val_main_v6 (F := Ideal) (m ((c : Thread nD τ).loc main_arg1)) :=
  (Stretches.keptJoin_v6 (W6 m ρ c)).trans (atW6_v6 m ρ c)
theorem atR1_v31 : W7 m ρ c (Proc.devRef .tc main_v31) = Cert.ReferenceIdeal.Read.val_main_v31 (F := Ideal) (m ((c : Thread nD τ).loc main_arg1)) (m ((c : Thread nD τ).loc main_arg2)) :=
  (Stretches.keptJoin_v31 (W6 m ρ c)).trans (atW6_v31 m ρ c)
theorem atR1_v49 : W7 m ρ c (Proc.devRef .tc main_v49) = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (Stretches.keptJoin_v49 (W6 m ρ c)).trans (atW6_v49 m ρ c)

/-! ## After the second region -/

/-- The second region leaves the product of the hidden layer with the two head matrices side by side. -/
theorem afterR1_v52 : W8 m ρ c (Proc.devRef .tc main_v52) = mm (Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (concatenate S256x256 1 [⟨S256x128, (m ((c : Thread nD τ).loc main_arg5))⟩, ⟨S256x128, (m ((c : Thread nD τ).loc main_arg7))⟩] concatenates_S256x128_S256x128_S256x256_d1) := by
  refine (W8_arr m ρ c 2).trans ((Blocks.final1 (V7 m ρ) c).trans ?_)
  show mm (W7 m ρ c (Proc.devRef .tc main_v49)) (W7 m ρ c (Proc.devRef .tc main_v50)) = _
  rw [atR1_v49, atR1_v50]
theorem afterR1_v5 : W8 m ρ c (Proc.devRef .tc main_v5) = Cert.ReferenceIdeal.Read.val_main_v5 (F := Ideal) (m ((c : Thread nD τ).loc main_arg1)) :=
  (W8_of_ne m ρ c main_v5 (by decide)).trans (atR1_v5 m ρ c)
theorem afterR1_v6 : W8 m ρ c (Proc.devRef .tc main_v6) = Cert.ReferenceIdeal.Read.val_main_v6 (F := Ideal) (m ((c : Thread nD τ).loc main_arg1)) :=
  (W8_of_ne m ρ c main_v6 (by decide)).trans (atR1_v6 m ρ c)
theorem afterR1_v31 : W8 m ρ c (Proc.devRef .tc main_v31) = Cert.ReferenceIdeal.Read.val_main_v31 (F := Ideal) (m ((c : Thread nD τ).loc main_arg1)) (m ((c : Thread nD τ).loc main_arg2)) :=
  (W8_of_ne m ρ c main_v31 (by decide)).trans (atR1_v31 m ρ c)
theorem afterR1_v51 : W8 m ρ c (Proc.devRef .tc main_v51) = concatenate S256 0 [⟨S128, (m ((c : Thread nD τ).loc main_arg6))⟩, ⟨S128, (m ((c : Thread nD τ).loc main_arg8))⟩] concatenates_S128_S128_S256_d0 :=
  (W8_of_ne m ρ c main_v51 (by decide)).trans (atR1_v51 m ρ c)

end Cert.KernelIdeal.Boundaries

end
-- ==== Proof.LibRowScatter.lean ====
/-
  General lemmas for programs that move whole rows of an [N, D] table by an integer column of row numbers.

  * `rowGather_apply`: gathering rows of an [N, D] table at an [E, 1] column of row numbers reads, at (e, k), the table at
    (row number of e clamped into [0, N - 1], k).
  * `rowScatter_lands`: the update at (e, k) of a row scatter lands on (n, k') exactly when the row number of e is n and k = k'.
  * `rowScatterAdd_apply`: adding [E, D] updates into the rows of an [N, D] table at an [E, 1] column of row numbers reads,
    at (n, k), the table at (n, k) plus the sum over the e whose row number is n of the update at (e, k).
-/
import Idealize.ShloMosaic.PureOps.Ideal
import Idealize.ShloMosaic.PureOps.Ideal.Laws
import Idealize.ShloMosaic.Lib.ValueIdx

noncomputable section

open scoped BigOperators

namespace Cert.RowScatter

open Idealize.ShloMosaic Idealize.ShloMosaic.ValueIdx

/-! ## Gathering rows -/

/-- The dimension numbers of a row gather: operand `[N, D]`, start indices `[E, 1]`, result `[E, D]`; axis 0 of the operand
    is indexed and collapsed, axis 1 is copied whole. -/
abbrev rowGatherDims (N E D : ℕ)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- On the indexed axis a row gather reads the start index `idx[e, 0]`, signed and clamped into `[0, N - 1]`. -/
private theorem rowGather_coord0 {N E D w : ℕ}
    (wf : GatherDims.WF ⟨2, ![N, D]⟩ ⟨2, ![E, 1]⟩ ⟨2, ![E, D]⟩ [1] [0] [] [0] [] 1 ![1, D])
    (idx : IVec ⟨2, ![E, 1]⟩ w) (e : Fin E) (k : Fin D) :
    (rowGatherDims N E D wf).start (ix2 e k) idx (0 : Fin 2) + (rowGatherDims N E D wf).batchCoord (ix2 e k) (0 : Fin 2)
      + (rowGatherDims N E D wf).offCoord (ix2 e k) (0 : Fin 2) = min (idx (ix2 e (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N E D wf).startIndexMap from List.mem_singleton.mpr rfl)]
  have hsi : (rowGatherDims N E D wf).siIdx (ix2 e k) ⟨List.idxOf (0 : Fin 2) (rowGatherDims N E D wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the copied axis a row gather reads the result's own column. -/
private theorem rowGather_coord1 {N E D w : ℕ}
    (wf : GatherDims.WF ⟨2, ![N, D]⟩ ⟨2, ![E, 1]⟩ ⟨2, ![E, D]⟩ [1] [0] [] [0] [] 1 ![1, D])
    (idx : IVec ⟨2, ![E, 1]⟩ w) (e : Fin E) (k : Fin D) :
    (rowGatherDims N E D wf).start (ix2 e k) idx (1 : Fin 2) + (rowGatherDims N E D wf).batchCoord (ix2 e k) (1 : Fin 2)
      + (rowGatherDims N E D wf).offCoord (ix2 e k) (1 : Fin 2) = k.val := by
  have h10 : (1 : Fin 2) ∉ [(0 : Fin 2)] := fun h => absurd (List.mem_singleton.mp h) (by decide)
  have hs : (rowGatherDims N E D wf).start (ix2 e k) idx (1 : Fin 2) = 0 := by
    unfold GatherDims.start
    rw [dif_neg (show (1 : Fin 2) ∉ (rowGatherDims N E D wf).startIndexMap from h10)]
  have ho : (rowGatherDims N E D wf).offCoord (ix2 e k) (1 : Fin 2) = k.val := by
    unfold GatherDims.offCoord
    rw [dif_pos (show (1 : Fin 2) ∈ (rowGatherDims N E D wf).sKept from
      (GatherDims.mem_sKept _ _).mpr ⟨h10, List.not_mem_nil⟩)]
    rfl
  rw [GatherDims.batchCoord_eq_zero _ _ _ List.not_mem_nil, hs, ho]
  omega

/-- A row gather reads, at (e, k), the operand at row `idx[e, 0]` (read signed, clamped into `[0, N - 1]`) and column k. -/
theorem rowGather_apply {α : Type} {N E D w : ℕ} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowGatherDims N E D wf) x idx (ix2 e k)
      = x (ix2 ⟨min (idx (ix2 e (0 : Fin 1))).toInt.toNat (N - 1), by omega⟩ k) := by
  unfold Host.gather
  congr 1
  funext a
  match a with
  | ⟨0, _⟩ => exact Fin.ext (rowGather_coord0 wf idx e k)
  | ⟨1, _⟩ => exact Fin.ext (rowGather_coord1 wf idx e k)

/-! ## Adding updates into rows -/

/-- The dimension numbers of a row scatter: operand `[N, D]`, scatter indices `[E, 1]`, updates `[E, D]`; axis 0 of the
    operand is indexed, axis 1 of the updates is the window laid along axis 1 of the operand. -/
abbrev rowScatterDims (N E D : ℕ) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Coords
variable {N E D w : ℕ} (wf : ScatterDims.WF ⟨2, ![N, D]⟩ ⟨2, ![E, 1]⟩ ⟨2, ![E, D]⟩ [1] [0] [0] 1)
  (idx : IVec ⟨2, ![E, 1]⟩ w) (e : Fin E) (k : Fin D)

private theorem one_not_mem : (1 : Fin 2) ∉ [(0 : Fin 2)] := fun h => absurd (List.mem_singleton.mp h) (by decide)

/-- The window of update (e, k) starts, on the indexed axis, at the row number `idx[e, 0]` read signed. -/
private theorem start0 :
    (rowScatterDims N E D wf).start (ix2 e k) idx (0 : Fin 2) = (idx (ix2 e (0 : Fin 1))).toInt := by
  unfold ScatterDims.start
  rw [dif_pos (show (0 : Fin 2) ∈ (rowScatterDims N E D wf).scatterDimsToOperandDims from List.mem_singleton.mpr rfl)]
  have hsi : (rowScatterDims N E D wf).siIdx (ix2 e k)
      ⟨List.idxOf (0 : Fin 2) (rowScatterDims N E D wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the window axis the start is 0. -/
private theorem start1 : (rowScatterDims N E D wf).start (ix2 e k) idx (1 : Fin 2) = 0 := by
  unfold ScatterDims.start
  rw [dif_neg (show (1 : Fin 2) ∉ (rowScatterDims N E D wf).scatterDimsToOperandDims from one_not_mem)]

/-- The indexed axis is inserted: no window coordinate there. -/
private theorem window0 : (rowScatterDims N E D wf).window (ix2 e k) (0 : Fin 2) = 0 := by
  unfold ScatterDims.window
  rw [dif_neg]
  intro h
  have h' : (0 : Fin 2) ∈ (List.finRange 2).filter (· ∉ [(0 : Fin 2)]) := h
  simp at h'

/-- On the window axis the window coordinate is the update's column. -/
private theorem window1 : (rowScatterDims N E D wf).window (ix2 e k) (1 : Fin 2) = k.val := by
  unfold ScatterDims.window
  rw [dif_pos (show (1 : Fin 2) ∈ (rowScatterDims N E D wf).sKept from by
    show (1 : Fin 2) ∈ (List.finRange 2).filter (· ∉ [(0 : Fin 2)])
    decide)]
  rfl

end Coords

/-- The update at (e, k) of a row scatter lands on (n, k') exactly when the row number `idx[e, 0]`, read signed, is n
    and k = k'. -/
theorem rowScatter_lands {N E D w : ℕ} (wf : ScatterDims.WF ⟨2, ![N, D]⟩ ⟨2, ![E, 1]⟩ ⟨2, ![E, D]⟩ [1] [0] [0] 1)
    (idx : IVec ⟨2, ![E, 1]⟩ w) (e : Fin E) (k : Fin D) (n : Fin N) (k' : Fin D) :
    (rowScatterDims N E D wf).resultIdx? (ix2 e k) idx = some (ix2 n k')
      ↔ ((idx (ix2 e (0 : Fin 1))).toInt = (n.val : ℤ) ∧ k = k') := by
  have hs0 := start0 wf idx e k
  have hs1 := start1 wf idx e k
  have hw0 := window0 wf e k
  have hw1 := window1 wf e k
  have hn := n.isLt
  have hk := k.isLt
  unfold ScatterDims.resultIdx?
  split
  · rename_i h
    have h0 : 0 ≤ (rowScatterDims N E D wf).start (ix2 e k) idx (0 : Fin 2)
        + ((rowScatterDims N E D wf).window (ix2 e k) (0 : Fin 2) : ℤ) := (h 0).1
    rw [hs0, hw0] at h0
    constructor
    · intro heq
      have heq' := Option.some.inj heq
      have e0 : ((rowScatterDims N E D wf).start (ix2 e k) idx (0 : Fin 2)
          + ((rowScatterDims N E D wf).window (ix2 e k) (0 : Fin 2) : ℤ)).toNat = n.val :=
        congrArg Fin.val (congrFun heq' (0 : Fin 2))
      have e1 : ((rowScatterDims N E D wf).start (ix2 e k) idx (1 : Fin 2)
          + ((rowScatterDims N E D wf).window (ix2 e k) (1 : Fin 2) : ℤ)).toNat = k'.val :=
        congrArg Fin.val (congrFun heq' (1 : Fin 2))
      rw [hs0, hw0] at e0
      rw [hs1, hw1] at e1
      exact ⟨by omega, Fin.ext (by omega)⟩
    · rintro ⟨hi, rfl⟩
      congr 1
      funext a
      refine Fin.ext ?_
      match a with
      | ⟨0, _⟩ =>
        show ((rowScatterDims N E D wf).start (ix2 e k) idx (0 : Fin 2)
          + ((rowScatterDims N E D wf).window (ix2 e k) (0 : Fin 2) : ℤ)).toNat = n.val
        rw [hs0, hw0]; omega
      | ⟨1, _⟩ =>
        show ((rowScatterDims N E D wf).start (ix2 e k) idx (1 : Fin 2)
          + ((rowScatterDims N E D wf).window (ix2 e k) (1 : Fin 2) : ℤ)).toNat = k.val
        rw [hs1, hw1]; omega
  · rename_i h
    constructor
    · intro heq; exact absurd heq (by simp)
    · rintro ⟨hi, rfl⟩
      exfalso
      apply h
      intro a
      match a with
      | ⟨0, _⟩ =>
        show 0 ≤ (rowScatterDims N E D wf).start (ix2 e k) idx (0 : Fin 2)
            + ((rowScatterDims N E D wf).window (ix2 e k) (0 : Fin 2) : ℤ)
          ∧ (rowScatterDims N E D wf).start (ix2 e k) idx (0 : Fin 2)
            + ((rowScatterDims N E D wf).window (ix2 e k) (0 : Fin 2) : ℤ) < (N : ℤ)
        rw [hs0, hw0]; omega
      | ⟨1, _⟩ =>
        show 0 ≤ (rowScatterDims N E D wf).start (ix2 e k) idx (1 : Fin 2)
            + ((rowScatterDims N E D wf).window (ix2 e k) (1 : Fin 2) : ℤ)
          ∧ (rowScatterDims N E D wf).start (ix2 e k) idx (1 : Fin 2)
            + ((rowScatterDims N E D wf).window (ix2 e k) (1 : Fin 2) : ℤ) < (D : ℤ)
        rw [hs1, hw1]; omega

/-- Adding updates into rows reads, at (n, k), the operand at (n, k) plus the sum, over the e whose row number
    `idx[e, 0]` read signed is n, of the update at (e, k). -/
theorem rowScatterAdd_apply {N E D w : ℕ} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w)
    (upd : (⟨2, ![E, D]⟩ : Shape).Idx → EReal) (n : Fin N) (k : Fin D) :
    Host.scatterAdd (F := Ideal) (φ := .f32) (rowScatterDims N E D wf) x idx upd (ix2 n k)
      = x (ix2 n k) + ∑ e ∈ Finset.univ.filter (fun e : Fin E => (idx (ix2 e (0 : Fin 1))).toInt = (n.val : ℤ)),
          upd (ix2 e k) := by
  show Ideal.hostScatterAdd (rowScatterDims N E D wf) x idx upd (ix2 n k) = _
  unfold Ideal.hostScatterAdd
  congr 1
  rw [Finset.sum_filter, sum_idx2, Finset.sum_filter]
  refine Finset.sum_congr rfl fun e _ => ?_
  by_cases hP : (idx (ix2 e (0 : Fin 1))).toInt = (n.val : ℤ)
  · rw [if_pos hP]
    have : ∀ b : Fin D, (if (rowScatterDims N E D wf).resultIdx? (ix2 e b) idx = some (ix2 n k) then upd (ix2 e b) else 0)
        = if k = b then upd (ix2 e b) else 0 := by
      intro b
      refine if_congr ?_ rfl rfl
      rw [rowScatter_lands]
      exact ⟨fun h => h.2.symm, fun h => ⟨hP, h.symm⟩⟩
    rw [Finset.sum_congr rfl fun b _ => this b, Finset.sum_ite_eq]
    simp
  · rw [if_neg hP]
    refine Finset.sum_eq_zero fun b _ => ?_
    rw [if_neg]
    rw [rowScatter_lands]
    exact fun h => hP h.1

end Cert.RowScatter

end
-- ==== Proof.LibAggregate.lean ====
/-
  One aggregation layer of the graph network, read at an entry. The layer takes a table H of N rows and D columns,
  a list of E edges each with a source row (the gather index), a target row (the scatter index) and a weight, and a
  bias of D entries; it gathers each edge's source row, scales it by the edge's weight, adds it into the edge's
  target row of a zero table, and adds the bias to every row. At row n and column k the result is

      0 + (the sum, over the edges e whose target is n, of H (source e, k) · weight e) + bias k,

  the source read with the index clamped into the table, as a gather clamps it. Column k of the result is made from
  column k of H and entry k of the bias and from nothing else: the layer acts on each column by itself. That is the
  fact the comparison of a wide layer with two narrow ones rests on.

  The statement is for any row count, edge count and column count (an axis of extent one is broadcast, so the edge
  count and the column count are asked to differ from one, as they do in any use).
-/
import Idealize.ShloMosaic.Lib.ValueIdx
import Idealize.ShloMosaic.Lib.Pipeline.Value
import Idealize.ShloMosaic.PureOps.Ideal.Laws
import proofs.«155228_j55379308315092_1_alg».proof.Proof.LibRowScatter

noncomputable section

open scoped BigOperators

namespace Cert.Aggregate

open Idealize.ShloMosaic Idealize.ShloMosaic.ValueIdx Cert.RowScatter

variable {N E D : ℕ}

/-- A scalar broadcast to every entry of a table. -/
theorem splat_apply (hz : (⟨0, ![]⟩ : Shape).BroadcastsInDim ⟨2, ![N, D]⟩ (![] : Fin 0 → Fin 2))
    (z : FVec Ideal ⟨0, ![]⟩ .f32) (n : Fin N) (k : Fin D) :
    broadcastInDim ⟨2, ![N, D]⟩ ![] hz z (ix2 n k) = z ix0 :=
  broadcastInDim_apply _ hz z (ix2 n k) ix0 (fun a => a.elim0)

/-- A weight per edge, made a column and spread along every edge's row: at (e, k) it is the weight of edge e. -/
theorem edgeWeight_apply (hE : E ≠ 1)
    (hc1 : (⟨1, ![E]⟩ : Shape).BroadcastsInDim ⟨2, ![E, 1]⟩ (![0] : Fin 1 → Fin 2))
    (hc2 : (⟨2, ![E, 1]⟩ : Shape).BroadcastsInDim ⟨2, ![E, D]⟩ (![0, 1] : Fin 2 → Fin 2))
    (w : FVec Ideal ⟨1, ![E]⟩ .f32) (e : Fin E) (k : Fin D) :
    broadcastInDim ⟨2, ![E, D]⟩ ![0, 1] hc2 (broadcastInDim ⟨2, ![E, 1]⟩ ![0] hc1 w) (ix2 e k) = w (ix1 e) := by
  rw [broadcastInDim_apply _ hc2 _ (ix2 e k) (ix2 e (0 : Fin 1)) (fun a => match a with
      | ⟨0, _⟩ => by show e.val = if E = 1 then 0 else e.val; rw [if_neg hE]
      | ⟨1, _⟩ => by show (0 : ℕ) = if (1 : ℕ) = 1 then 0 else k.val; rw [if_pos rfl]),
    broadcastInDim_apply _ hc1 w (ix2 e (0 : Fin 1)) (ix1 e) (fun a => match a with
      | ⟨0, _⟩ => by show e.val = if E = 1 then 0 else e.val; rw [if_neg hE])]

/-- A bias per column, made a row and spread down every row: at (n, k) it is the bias of column k. -/
theorem biasRow_apply (hD : D ≠ 1)
    (hr1 : (⟨1, ![D]⟩ : Shape).BroadcastsInDim ⟨2, ![1, D]⟩ (![1] : Fin 1 → Fin 2))
    (hr2 : (⟨2, ![1, D]⟩ : Shape).BroadcastsInDim ⟨2, ![N, D]⟩ (![0, 1] : Fin 2 → Fin 2))
    (b : FVec Ideal ⟨1, ![D]⟩ .f32) (n : Fin N) (k : Fin D) :
    broadcastInDim ⟨2, ![N, D]⟩ ![0, 1] hr2 (broadcastInDim ⟨2, ![1, D]⟩ ![1] hr1 b) (ix2 n k) = b (ix1 k) := by
  rw [broadcastInDim_apply _ hr2 _ (ix2 n k) (ix2 (0 : Fin 1) k) (fun a => match a with
      | ⟨0, _⟩ => by show (0 : ℕ) = if (1 : ℕ) = 1 then 0 else n.val; rw [if_pos rfl]
      | ⟨1, _⟩ => by show k.val = if D = 1 then 0 else k.val; rw [if_neg hD]),
    broadcastInDim_apply _ hr1 b (ix2 (0 : Fin 1) k) (ix1 k) (fun a => match a with
      | ⟨0, _⟩ => by show k.val = if D = 1 then 0 else k.val; rw [if_neg hD])]

/-- The whole layer at row n, column k. -/
theorem layer_apply (hN : 0 < N) (hE : E ≠ 1) (hD : D ≠ 1)
    (wfg : GatherDims.WF ⟨2, ![N, D]⟩ ⟨2, ![E, 1]⟩ ⟨2, ![E, D]⟩ [1] [0] [] [0] [] 1 ![1, D])
    (gd : GatherDims ⟨2, ![N, D]⟩ ⟨2, ![E, 1]⟩ ⟨2, ![E, D]⟩) (hgd : gd = rowGatherDims N E D wfg)
    (wfs : ScatterDims.WF ⟨2, ![N, D]⟩ ⟨2, ![E, 1]⟩ ⟨2, ![E, D]⟩ [1] [0] [0] 1)
    (sd : ScatterDims ⟨2, ![N, D]⟩ ⟨2, ![E, 1]⟩ ⟨2, ![E, D]⟩) (hsd : sd = rowScatterDims N E D wfs)
    (hz : (⟨0, ![]⟩ : Shape).BroadcastsInDim ⟨2, ![N, D]⟩ (![] : Fin 0 → Fin 2))
    (hc1 : (⟨1, ![E]⟩ : Shape).BroadcastsInDim ⟨2, ![E, 1]⟩ (![0] : Fin 1 → Fin 2))
    (hc2 : (⟨2, ![E, 1]⟩ : Shape).BroadcastsInDim ⟨2, ![E, D]⟩ (![0, 1] : Fin 2 → Fin 2))
    (hr1 : (⟨1, ![D]⟩ : Shape).BroadcastsInDim ⟨2, ![1, D]⟩ (![1] : Fin 1 → Fin 2))
    (hr2 : (⟨2, ![1, D]⟩ : Shape).BroadcastsInDim ⟨2, ![N, D]⟩ (![0, 1] : Fin 2 → Fin 2))
    (H : FVec Ideal ⟨2, ![N, D]⟩ .f32) (src tgt : IVec ⟨2, ![E, 1]⟩ 32)
    (w : FVec Ideal ⟨1, ![E]⟩ .f32) (b : FVec Ideal ⟨1, ![D]⟩ .f32) (n : Fin N) (k : Fin D) :
    addf (Host.scatterAdd (F := Ideal) (φ := .f32) sd
          (broadcastInDim ⟨2, ![N, D]⟩ ![] hz (constant (F := Ideal) ⟨0, ![]⟩ .f32 0x00000000#32)) tgt
          (mulf (Host.gather gd H src) (broadcastInDim ⟨2, ![E, D]⟩ ![0, 1] hc2 (broadcastInDim ⟨2, ![E, 1]⟩ ![0] hc1 w))))
        (broadcastInDim ⟨2, ![N, D]⟩ ![0, 1] hr2 (broadcastInDim ⟨2, ![1, D]⟩ ![1] hr1 b)) (ix2 n k)
      = (Ideal.ofBits .f32 0x00000000#32
          + ∑ e ∈ Finset.univ.filter (fun e : Fin E => (tgt (ix2 e (0 : Fin 1))).toInt = (n.val : ℤ)),
              H (ix2 ⟨min (src (ix2 e (0 : Fin 1))).toInt.toNat (N - 1), by omega⟩ k) * w (ix1 e))
        + b (ix1 k) := by
  subst hgd hsd
  rw [addf_apply, rowScatterAdd_apply, biasRow_apply hD, splat_apply]
  refine congrArg (· + b (ix1 k)) (congrArg (constant (F := Ideal) ⟨0, ![]⟩ .f32 0x00000000#32 ix0 + ·) ?_)
  refine Finset.sum_congr rfl fun e _ => ?_
  rw [mulf_apply, rowGather_apply hN, edgeWeight_apply hE]

end Cert.Aggregate

end
-- ==== Proof.Heads.lean ====
/-
  The two heads of the encoder share everything but their weights and bias: the same hidden layer, the same edges,
  the same edge weights. The kernel lays the two 256 x 128 weight matrices side by side into one 256 x 256 matrix,
  the two biases end to end, runs ONE aggregation layer of 256 columns, and cuts the result into its left and its
  right 128 columns. The reference runs two aggregation layers of 128 columns.

  They agree because every step acts on each column by itself. Column j of the hidden layer times the joined matrix
  is the hidden layer times column j of the joined matrix, which is column j of the first matrix for j below 128 and
  column j - 128 of the second from there on. Gathering rows, scaling a row by its edge's weight and adding rows into
  target rows move whole rows and never mix columns. The bias added to column j is entry j of the joined bias. So
  column j of the wide layer is column j of the first head's layer, and column 128 + j is column j of the second's:
  the same sum of the same terms over the same edges. Nothing is cancelled or distributed, so the statement holds on
  all extended reals and needs nothing of the inputs.
-/
import Idealize.ShloMosaic.Lib.ValueIdx
import Idealize.ShloMosaic.Lib.Pipeline.Value
import Idealize.ShloMosaic.PureOps.Ideal.Laws
import proofs.«155228_j55379308315092_1_alg».proof.Proof.LibRowScatter
import proofs.«155228_j55379308315092_1_alg».proof.Proof.LibProduct
import proofs.«155228_j55379308315092_1_alg».proof.Proof.LibAggregate

noncomputable section

open scoped BigOperators

namespace Cert.Heads

open Idealize.ShloMosaic Idealize.ShloMosaic.ValueIdx Cert.RowScatter Cert.Product Cert.Aggregate

/-- One aggregation layer as a function of its table, its edges, their weights and its bias. -/
def layer {N E D : ℕ}
    (gd : GatherDims ⟨2, ![N, D]⟩ ⟨2, ![E, 1]⟩ ⟨2, ![E, D]⟩) (sd : ScatterDims ⟨2, ![N, D]⟩ ⟨2, ![E, 1]⟩ ⟨2, ![E, D]⟩)
    (hz : (⟨0, ![]⟩ : Shape).BroadcastsInDim ⟨2, ![N, D]⟩ (![] : Fin 0 → Fin 2))
    (hc1 : (⟨1, ![E]⟩ : Shape).BroadcastsInDim ⟨2, ![E, 1]⟩ (![0] : Fin 1 → Fin 2))
    (hc2 : (⟨2, ![E, 1]⟩ : Shape).BroadcastsInDim ⟨2, ![E, D]⟩ (![0, 1] : Fin 2 → Fin 2))
    (hr1 : (⟨1, ![D]⟩ : Shape).BroadcastsInDim ⟨2, ![1, D]⟩ (![1] : Fin 1 → Fin 2))
    (hr2 : (⟨2, ![1, D]⟩ : Shape).BroadcastsInDim ⟨2, ![N, D]⟩ (![0, 1] : Fin 2 → Fin 2))
    (H : FVec Ideal ⟨2, ![N, D]⟩ .f32) (src tgt : IVec ⟨2, ![E, 1]⟩ 32)
    (w : FVec Ideal ⟨1, ![E]⟩ .f32) (b : FVec Ideal ⟨1, ![D]⟩ .f32) : FVec Ideal ⟨2, ![N, D]⟩ .f32 :=
  addf (Host.scatterAdd (F := Ideal) (φ := .f32) sd
        (broadcastInDim ⟨2, ![N, D]⟩ ![] hz (constant (F := Ideal) ⟨0, ![]⟩ .f32 0x00000000#32)) tgt
        (mulf (Host.gather gd H src) (broadcastInDim ⟨2, ![E, D]⟩ ![0, 1] hc2 (broadcastInDim ⟨2, ![E, 1]⟩ ![0] hc1 w))))
      (broadcastInDim ⟨2, ![N, D]⟩ ![0, 1] hr2 (broadcastInDim ⟨2, ![1, D]⟩ ![1] hr1 b))

/-- The left 128 columns of the wide layer are the first head's layer. -/
theorem wide_left
    (wfgW : GatherDims.WF ⟨2, ![50000, 256]⟩ ⟨2, ![850000, 1]⟩ ⟨2, ![850000, 256]⟩ [1] [0] [] [0] [] 1 ![1, 256])
    (gdW : GatherDims ⟨2, ![50000, 256]⟩ ⟨2, ![850000, 1]⟩ ⟨2, ![850000, 256]⟩) (hgdW : gdW = rowGatherDims 50000 850000 256 wfgW)
    (wfsW : ScatterDims.WF ⟨2, ![50000, 256]⟩ ⟨2, ![850000, 1]⟩ ⟨2, ![850000, 256]⟩ [1] [0] [0] 1)
    (sdW : ScatterDims ⟨2, ![50000, 256]⟩ ⟨2, ![850000, 1]⟩ ⟨2, ![850000, 256]⟩) (hsdW : sdW = rowScatterDims 50000 850000 256 wfsW)
    (hzW : (⟨0, ![]⟩ : Shape).BroadcastsInDim ⟨2, ![50000, 256]⟩ (![] : Fin 0 → Fin 2))
    (hc1W : (⟨1, ![850000]⟩ : Shape).BroadcastsInDim ⟨2, ![850000, 1]⟩ (![0] : Fin 1 → Fin 2))
    (hc2W : (⟨2, ![850000, 1]⟩ : Shape).BroadcastsInDim ⟨2, ![850000, 256]⟩ (![0, 1] : Fin 2 → Fin 2))
    (hr1W : (⟨1, ![256]⟩ : Shape).BroadcastsInDim ⟨2, ![1, 256]⟩ (![1] : Fin 1 → Fin 2))
    (hr2W : (⟨2, ![1, 256]⟩ : Shape).BroadcastsInDim ⟨2, ![50000, 256]⟩ (![0, 1] : Fin 2 → Fin 2))
    (wfgN : GatherDims.WF ⟨2, ![50000, 128]⟩ ⟨2, ![850000, 1]⟩ ⟨2, ![850000, 128]⟩ [1] [0] [] [0] [] 1 ![1, 128])
    (gdN : GatherDims ⟨2, ![50000, 128]⟩ ⟨2, ![850000, 1]⟩ ⟨2, ![850000, 128]⟩) (hgdN : gdN = rowGatherDims 50000 850000 128 wfgN)
    (wfsN : ScatterDims.WF ⟨2, ![50000, 128]⟩ ⟨2, ![850000, 1]⟩ ⟨2, ![850000, 128]⟩ [1] [0] [0] 1)
    (sdN : ScatterDims ⟨2, ![50000, 128]⟩ ⟨2, ![850000, 1]⟩ ⟨2, ![850000, 128]⟩) (hsdN : sdN = rowScatterDims 50000 850000 128 wfsN)
    (hzN : (⟨0, ![]⟩ : Shape).BroadcastsInDim ⟨2, ![50000, 128]⟩ (![] : Fin 0 → Fin 2))
    (hc1N : (⟨1, ![850000]⟩ : Shape).BroadcastsInDim ⟨2, ![850000, 1]⟩ (![0] : Fin 1 → Fin 2))
    (hc2N : (⟨2, ![850000, 1]⟩ : Shape).BroadcastsInDim ⟨2, ![850000, 128]⟩ (![0, 1] : Fin 2 → Fin 2))
    (hr1N : (⟨1, ![128]⟩ : Shape).BroadcastsInDim ⟨2, ![1, 128]⟩ (![1] : Fin 1 → Fin 2))
    (hr2N : (⟨2, ![1, 128]⟩ : Shape).BroadcastsInDim ⟨2, ![50000, 128]⟩ (![0, 1] : Fin 2 → Fin 2))
    (hsl : (⟨2, ![50000, 256]⟩ : Shape).Slices ![0, 0] ⟨2, ![50000, 128]⟩)
    (hcw : Shape.Concatenates [(⟨2, ![256, 128]⟩ : Shape), ⟨2, ![256, 128]⟩] ⟨2, ![256, 256]⟩ 1)
    (hcb : Shape.Concatenates [(⟨1, ![128]⟩ : Shape), ⟨1, ![128]⟩] ⟨1, ![256]⟩ 0)
    (h : FVec Ideal ⟨2, ![50000, 256]⟩ .f32) (src tgt : IVec ⟨2, ![850000, 1]⟩ 32) (w : FVec Ideal ⟨1, ![850000]⟩ .f32)
    (Wa Wb : FVec Ideal ⟨2, ![256, 128]⟩ .f32) (ba bb : FVec Ideal ⟨1, ![128]⟩ .f32) :
    extractStridedSlice ⟨2, ![50000, 128]⟩ ![0, 0] (layer gdW sdW hzW hc1W hc2W hr1W hr2W
        (mm h (concatenate ⟨2, ![256, 256]⟩ 1 [⟨⟨2, ![256, 128]⟩, Wa⟩, ⟨⟨2, ![256, 128]⟩, Wb⟩] hcw)) src tgt w
        (concatenate ⟨1, ![256]⟩ 0 [⟨⟨1, ![128]⟩, ba⟩, ⟨⟨1, ![128]⟩, bb⟩] hcb)) hsl
      = layer gdN sdN hzN hc1N hc2N hr1N hr2N (mm h Wa) src tgt w ba := by
  funext i
  obtain ⟨n, j, rfl⟩ : ∃ (n : Fin 50000) (j : Fin 128), i = ix2 n j := ⟨i 0, i 1, eq_ix2 i⟩
  have hj : j.val < 256 := by have := j.isLt; omega
  rw [extractStridedSlice_apply _ _ hsl (ix2 n j) (ix2 n (⟨j.val, hj⟩ : Fin 256)) (fun a => match a with
    | ⟨0, _⟩ => by show n.val = 0 + n.val; omega
    | ⟨1, _⟩ => by show j.val = 0 + j.val; omega)]
  unfold layer
  rw [layer_apply (by decide) (by decide) (by decide) wfgW gdW hgdW wfsW sdW hsdW,
    layer_apply (by decide) (by decide) (by decide) wfgN gdN hgdN wfsN sdN hsdN]
  have hcol : ∀ r : Fin 50000, mm h (concatenate ⟨2, ![256, 256]⟩ 1 [⟨⟨2, ![256, 128]⟩, Wa⟩, ⟨⟨2, ![256, 128]⟩, Wb⟩] hcw) (ix2 r (⟨j.val, hj⟩ : Fin 256))
      = mm h Wa (ix2 r j) := fun r => by
    rw [mm_apply, mm_apply]
    refine Finset.sum_congr rfl fun k _ => ?_
    rw [concatenate_pair_apply_left (1 : Fin 2) Wa Wb hcw (ix2 k (⟨j.val, hj⟩ : Fin 256)) rfl (ix2 k j) (fun b => match b with
      | ⟨0, _⟩ => rfl
      | ⟨1, _⟩ => rfl)]
  have hb : concatenate ⟨1, ![256]⟩ 0 [⟨⟨1, ![128]⟩, ba⟩, ⟨⟨1, ![128]⟩, bb⟩] hcb (ix1 (⟨j.val, hj⟩ : Fin 256)) = ba (ix1 j) :=
    concatenate_pair_apply_left (0 : Fin 1) ba bb hcb (ix1 (⟨j.val, hj⟩ : Fin 256)) rfl (ix1 j) (fun b => match b with
      | ⟨0, _⟩ => rfl)
  rw [hb]
  refine congrArg (· + ba (ix1 j)) (congrArg (Ideal.ofBits .f32 0x00000000#32 + ·) (Finset.sum_congr rfl fun e _ => ?_))
  rw [hcol]

/-- The right 128 columns of the wide layer are the second head's layer. -/
theorem wide_right
    (wfgW : GatherDims.WF ⟨2, ![50000, 256]⟩ ⟨2, ![850000, 1]⟩ ⟨2, ![850000, 256]⟩ [1] [0] [] [0] [] 1 ![1, 256])
    (gdW : GatherDims ⟨2, ![50000, 256]⟩ ⟨2, ![850000, 1]⟩ ⟨2, ![850000, 256]⟩) (hgdW : gdW = rowGatherDims 50000 850000 256 wfgW)
    (wfsW : ScatterDims.WF ⟨2, ![50000, 256]⟩ ⟨2, ![850000, 1]⟩ ⟨2, ![850000, 256]⟩ [1] [0] [0] 1)
    (sdW : ScatterDims ⟨2, ![50000, 256]⟩ ⟨2, ![850000, 1]⟩ ⟨2, ![850000, 256]⟩) (hsdW : sdW = rowScatterDims 50000 850000 256 wfsW)
    (hzW : (⟨0, ![]⟩ : Shape).BroadcastsInDim ⟨2, ![50000, 256]⟩ (![] : Fin 0 → Fin 2))
    (hc1W : (⟨1, ![850000]⟩ : Shape).BroadcastsInDim ⟨2, ![850000, 1]⟩ (![0] : Fin 1 → Fin 2))
    (hc2W : (⟨2, ![850000, 1]⟩ : Shape).BroadcastsInDim ⟨2, ![850000, 256]⟩ (![0, 1] : Fin 2 → Fin 2))
    (hr1W : (⟨1, ![256]⟩ : Shape).BroadcastsInDim ⟨2, ![1, 256]⟩ (![1] : Fin 1 → Fin 2))
    (hr2W : (⟨2, ![1, 256]⟩ : Shape).BroadcastsInDim ⟨2, ![50000, 256]⟩ (![0, 1] : Fin 2 → Fin 2))
    (wfgN : GatherDims.WF ⟨2, ![50000, 128]⟩ ⟨2, ![850000, 1]⟩ ⟨2, ![850000, 128]⟩ [1] [0] [] [0] [] 1 ![1, 128])
    (gdN : GatherDims ⟨2, ![50000, 128]⟩ ⟨2, ![850000, 1]⟩ ⟨2, ![850000, 128]⟩) (hgdN : gdN = rowGatherDims 50000 850000 128 wfgN)
    (wfsN : ScatterDims.WF ⟨2, ![50000, 128]⟩ ⟨2, ![850000, 1]⟩ ⟨2, ![850000, 128]⟩ [1] [0] [0] 1)
    (sdN : ScatterDims ⟨2, ![50000, 128]⟩ ⟨2, ![850000, 1]⟩ ⟨2, ![850000, 128]⟩) (hsdN : sdN = rowScatterDims 50000 850000 128 wfsN)
    (hzN : (⟨0, ![]⟩ : Shape).BroadcastsInDim ⟨2, ![50000, 128]⟩ (![] : Fin 0 → Fin 2))
    (hc1N : (⟨1, ![850000]⟩ : Shape).BroadcastsInDim ⟨2, ![850000, 1]⟩ (![0] : Fin 1 → Fin 2))
    (hc2N : (⟨2, ![850000, 1]⟩ : Shape).BroadcastsInDim ⟨2, ![850000, 128]⟩ (![0, 1] : Fin 2 → Fin 2))
    (hr1N : (⟨1, ![128]⟩ : Shape).BroadcastsInDim ⟨2, ![1, 128]⟩ (![1] : Fin 1 → Fin 2))
    (hr2N : (⟨2, ![1, 128]⟩ : Shape).BroadcastsInDim ⟨2, ![50000, 128]⟩ (![0, 1] : Fin 2 → Fin 2))
    (hsl : (⟨2, ![50000, 256]⟩ : Shape).Slices ![0, 128] ⟨2, ![50000, 128]⟩)
    (hcw : Shape.Concatenates [(⟨2, ![256, 128]⟩ : Shape), ⟨2, ![256, 128]⟩] ⟨2, ![256, 256]⟩ 1)
    (hcb : Shape.Concatenates [(⟨1, ![128]⟩ : Shape), ⟨1, ![128]⟩] ⟨1, ![256]⟩ 0)
    (h : FVec Ideal ⟨2, ![50000, 256]⟩ .f32) (src tgt : IVec ⟨2, ![850000, 1]⟩ 32) (w : FVec Ideal ⟨1, ![850000]⟩ .f32)
    (Wa Wb : FVec Ideal ⟨2, ![256, 128]⟩ .f32) (ba bb : FVec Ideal ⟨1, ![128]⟩ .f32) :
    extractStridedSlice ⟨2, ![50000, 128]⟩ ![0, 128] (layer gdW sdW hzW hc1W hc2W hr1W hr2W
        (mm h (concatenate ⟨2, ![256, 256]⟩ 1 [⟨⟨2, ![256, 128]⟩, Wa⟩, ⟨⟨2, ![256, 128]⟩, Wb⟩] hcw)) src tgt w
        (concatenate ⟨1, ![256]⟩ 0 [⟨⟨1, ![128]⟩, ba⟩, ⟨⟨1, ![128]⟩, bb⟩] hcb)) hsl
      = layer gdN sdN hzN hc1N hc2N hr1N hr2N (mm h Wb) src tgt w bb := by
  funext i
  obtain ⟨n, j, rfl⟩ : ∃ (n : Fin 50000) (j : Fin 128), i = ix2 n j := ⟨i 0, i 1, eq_ix2 i⟩
  have hj : 128 + j.val < 256 := by have := j.isLt; omega
  rw [extractStridedSlice_apply _ _ hsl (ix2 n j) (ix2 n (⟨128 + j.val, hj⟩ : Fin 256)) (fun a => match a with
    | ⟨0, _⟩ => by show n.val = 0 + n.val; omega
    | ⟨1, _⟩ => by show 128 + j.val = 128 + j.val; rfl)]
  unfold layer
  rw [layer_apply (by decide) (by decide) (by decide) wfgW gdW hgdW wfsW sdW hsdW,
    layer_apply (by decide) (by decide) (by decide) wfgN gdN hgdN wfsN sdN hsdN]
  have hcol : ∀ r : Fin 50000, mm h (concatenate ⟨2, ![256, 256]⟩ 1 [⟨⟨2, ![256, 128]⟩, Wa⟩, ⟨⟨2, ![256, 128]⟩, Wb⟩] hcw) (ix2 r (⟨128 + j.val, hj⟩ : Fin 256))
      = mm h Wb (ix2 r j) := fun r => by
    rw [mm_apply, mm_apply]
    refine Finset.sum_congr rfl fun k _ => ?_
    rw [concatenate_pair_apply_right (1 : Fin 2) Wa Wb hcw (ix2 k (⟨128 + j.val, hj⟩ : Fin 256)) rfl rfl (ix2 k j)
      (fun b hb => match b, hb with
        | ⟨0, _⟩, _ => rfl
        | ⟨1, _⟩, hb => absurd rfl hb)
      (by show j.val + 128 = 128 + j.val; omega)]
  have hb : concatenate ⟨1, ![256]⟩ 0 [⟨⟨1, ![128]⟩, ba⟩, ⟨⟨1, ![128]⟩, bb⟩] hcb (ix1 (⟨128 + j.val, hj⟩ : Fin 256)) = bb (ix1 j) :=
    concatenate_pair_apply_right (0 : Fin 1) ba bb hcb (ix1 (⟨128 + j.val, hj⟩ : Fin 256)) rfl rfl (ix1 j)
      (fun b hb => match b, hb with
        | ⟨0, _⟩, hb => absurd rfl hb)
      (by show j.val + 128 = 128 + j.val; omega)
  rw [hb]
  refine congrArg (· + bb (ix1 j)) (congrArg (Ideal.ofBits .f32 0x00000000#32 + ·) (Finset.sum_congr rfl fun e _ => ?_))
  rw [hcol]

end Cert.Heads

end
-- ==== Proof.Bridge.lean ====
/-
  The two results of the kernel program against the two results of the reference, as functions of the nine arguments.

  At its last stretch the kernel program takes the second region's product (the hidden layer times the two head
  matrices side by side), runs one aggregation layer of 256 columns with the joined bias, and cuts out the left and
  the right 128 columns. The reference's last stages are, per head, the host's product of the same hidden layer with
  that head's matrix followed by an aggregation layer of 128 columns with that head's bias, over the same edges with
  the same weights. A wide layer's left half is the first head's layer and its right half the second's; and the
  host's product is the whole product. So each kernel result is the reference's stage for that head.
-/
import proofs.«155228_j55379308315092_1_alg».proof.Proof.Gen.KernelIdeal.Frame
import proofs.«155228_j55379308315092_1_alg».proof.Proof.Gen.ReferenceIdeal.Read
import proofs.«155228_j55379308315092_1_alg».proof.Proof.Boundaries
import proofs.«155228_j55379308315092_1_alg».proof.Proof.Heads
import proofs.«155228_j55379308315092_1_alg».proof.Proof.LibProduct
import Idealize.ShloMosaic.Lib.StableHlo.Run

set_option maxRecDepth 16384

noncomputable section

namespace Cert.KernelIdeal.Bridge

open Cert.KernelIdeal Cert.KernelIdeal.Gen Cert.KernelIdeal.Boundaries Cert.Product Cert.Heads
open Idealize.ShloMosaic Idealize.ShloMosaic.TcCoe Idealize.ShloMosaic.StableHlo Idealize.SL.Sem

/-! ## The reference's last stages, head by head, as an aggregation layer over the whole product -/

theorem ref_head0 (x0 : (⟨Cert.ReferenceIdeal.S50000x256, .f32⟩ : BufTy).Contents (Elt Ideal)) (x1 : (⟨Cert.ReferenceIdeal.S2x800000, .i32⟩ : BufTy).Contents (Elt Ideal)) (x2 : (⟨Cert.ReferenceIdeal.S800000, .f32⟩ : BufTy).Contents (Elt Ideal)) (x3 : (⟨Cert.ReferenceIdeal.S256x256, .f32⟩ : BufTy).Contents (Elt Ideal)) (x4 : (⟨Cert.ReferenceIdeal.S256, .f32⟩ : BufTy).Contents (Elt Ideal)) (x5 : (⟨Cert.ReferenceIdeal.S256x128, .f32⟩ : BufTy).Contents (Elt Ideal)) (x6 : (⟨Cert.ReferenceIdeal.S128, .f32⟩ : BufTy).Contents (Elt Ideal)) :
    Cert.ReferenceIdeal.Read.val_main_v66 (F := Ideal) x0 x1 x2 x3 x4 x5 x6
      = layer Cert.ReferenceIdeal.gather_S50000x128_S850000x1_S850000x128_1_0_n_n_0_1_1128 Cert.ReferenceIdeal.scatter_S50000x128_S850000x1_S850000x128_1_0_0_1
        Cert.ReferenceIdeal.Facts₀.bcast_S_S50000x128 Cert.ReferenceIdeal.Facts₀.bcast_S850000_S850000x1_0 Cert.ReferenceIdeal.Facts₀.bcast_S850000x1_S850000x128_0_1 Cert.ReferenceIdeal.Facts₀.bcast_S128_S1x128_1 Cert.ReferenceIdeal.Facts₀.bcast_S1x128_S50000x128_0_1
          (mm (Cert.ReferenceIdeal.Read.val_main_v49 (F := Ideal) x0 x1 x2 x3 x4) x5) (Cert.ReferenceIdeal.Read.val_main_v56 (F := Ideal) x1) (Cert.ReferenceIdeal.Read.val_main_v62 (F := Ideal) x1)
          (Cert.ReferenceIdeal.Read.val_main_v31 (F := Ideal) x1 x2) x6 := by
  rw [← hostDot_eq_mm Cert.ReferenceIdeal.dot_S50000x256_S256x128_S50000x128_1_0_0_1_n_n rfl]
  rfl

theorem ref_head1 (x0 : (⟨Cert.ReferenceIdeal.S50000x256, .f32⟩ : BufTy).Contents (Elt Ideal)) (x1 : (⟨Cert.ReferenceIdeal.S2x800000, .i32⟩ : BufTy).Contents (Elt Ideal)) (x2 : (⟨Cert.ReferenceIdeal.S800000, .f32⟩ : BufTy).Contents (Elt Ideal)) (x3 : (⟨Cert.ReferenceIdeal.S256x256, .f32⟩ : BufTy).Contents (Elt Ideal)) (x4 : (⟨Cert.ReferenceIdeal.S256, .f32⟩ : BufTy).Contents (Elt Ideal)) (x7 : (⟨Cert.ReferenceIdeal.S256x128, .f32⟩ : BufTy).Contents (Elt Ideal)) (x8 : (⟨Cert.ReferenceIdeal.S128, .f32⟩ : BufTy).Contents (Elt Ideal)) :
    Cert.ReferenceIdeal.Read.val_main_v83 (F := Ideal) x0 x1 x2 x3 x4 x7 x8
      = layer Cert.ReferenceIdeal.gather_S50000x128_S850000x1_S850000x128_1_0_n_n_0_1_1128 Cert.ReferenceIdeal.scatter_S50000x128_S850000x1_S850000x128_1_0_0_1
        Cert.ReferenceIdeal.Facts₀.bcast_S_S50000x128 Cert.ReferenceIdeal.Facts₀.bcast_S850000_S850000x1_0 Cert.ReferenceIdeal.Facts₀.bcast_S850000x1_S850000x128_0_1 Cert.ReferenceIdeal.Facts₀.bcast_S128_S1x128_1 Cert.ReferenceIdeal.Facts₀.bcast_S1x128_S50000x128_0_1
          (mm (Cert.ReferenceIdeal.Read.val_main_v49 (F := Ideal) x0 x1 x2 x3 x4) x7) (Cert.ReferenceIdeal.Read.val_main_v73 (F := Ideal) x1) (Cert.ReferenceIdeal.Read.val_main_v79 (F := Ideal) x1)
          (Cert.ReferenceIdeal.Read.val_main_v31 (F := Ideal) x1 x2) x8 := by
  rw [← hostDot_eq_mm Cert.ReferenceIdeal.dot_S50000x256_S256x128_S50000x128_1_0_0_1_n_n rfl]
  rfl

/-! ## The kernel's results at the last boundary -/

variable (m : (ℓ : Loc nD τ sig) → Buf (Elt Ideal) ℓ) (ρ : Dev nD → PrngReg) (c : Dev nD)

/-- The first result: the left half of the wide layer is the first head. -/
theorem out0 : W9 m ρ c (Proc.devRef .tc main_v69)
    = Cert.ReferenceIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [ref_head0]
  after_results_simp
  rw [afterR1_v52, afterR1_v5, afterR1_v6, afterR1_v31, afterR1_v51]
  exact wide_left (wfgW := gather_S50000x256_S850000x1_S850000x256_1_0_n_n_0_1_1256_wf)
    (gdW := gather_S50000x256_S850000x1_S850000x256_1_0_n_n_0_1_1256) (hgdW := rfl)
    (wfsW := scatter_S50000x256_S850000x1_S850000x256_1_0_0_1_wf)
    (sdW := scatter_S50000x256_S850000x1_S850000x256_1_0_0_1) (hsdW := rfl)
    (hzW := bcast_S_S50000x256) (hc1W := bcast_S850000_S850000x1_0) (hc2W := bcast_S850000x1_S850000x256_0_1)
    (hr1W := bcast_S256_S1x256_1) (hr2W := bcast_S1x256_S50000x256_0_1)
    (wfgN := Cert.ReferenceIdeal.Facts₀.gather_S50000x128_S850000x1_S850000x128_1_0_n_n_0_1_1128_wf)
    (gdN := Cert.ReferenceIdeal.gather_S50000x128_S850000x1_S850000x128_1_0_n_n_0_1_1128) (hgdN := rfl)
    (wfsN := Cert.ReferenceIdeal.Facts₀.scatter_S50000x128_S850000x1_S850000x128_1_0_0_1_wf)
    (sdN := Cert.ReferenceIdeal.scatter_S50000x128_S850000x1_S850000x128_1_0_0_1) (hsdN := rfl)
    (hzN := Cert.ReferenceIdeal.Facts₀.bcast_S_S50000x128) (hc1N := Cert.ReferenceIdeal.Facts₀.bcast_S850000_S850000x1_0) (hc2N := Cert.ReferenceIdeal.Facts₀.bcast_S850000x1_S850000x128_0_1)
    (hr1N := Cert.ReferenceIdeal.Facts₀.bcast_S128_S1x128_1) (hr2N := Cert.ReferenceIdeal.Facts₀.bcast_S1x128_S50000x128_0_1)
    (hcw := concatenates_S256x128_S256x128_S256x256_d1) (hcb := concatenates_S128_S128_S256_d0)
    (hsl := slices_S50000x256_S50000x128_0_0) _ _ _ _ _ _ _ _

/-- The second result: the right half of the wide layer is the second head. -/
theorem out1 : W9 m ρ c (Proc.devRef .tc main_v70)
    = Cert.ReferenceIdeal.Read.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) := by
  rw [ref_head1]
  after_results_simp
  rw [afterR1_v52, afterR1_v5, afterR1_v6, afterR1_v31, afterR1_v51]
  exact wide_right (wfgW := gather_S50000x256_S850000x1_S850000x256_1_0_n_n_0_1_1256_wf)
    (gdW := gather_S50000x256_S850000x1_S850000x256_1_0_n_n_0_1_1256) (hgdW := rfl)
    (wfsW := scatter_S50000x256_S850000x1_S850000x256_1_0_0_1_wf)
    (sdW := scatter_S50000x256_S850000x1_S850000x256_1_0_0_1) (hsdW := rfl)
    (hzW := bcast_S_S50000x256) (hc1W := bcast_S850000_S850000x1_0) (hc2W := bcast_S850000x1_S850000x256_0_1)
    (hr1W := bcast_S256_S1x256_1) (hr2W := bcast_S1x256_S50000x256_0_1)
    (wfgN := Cert.ReferenceIdeal.Facts₀.gather_S50000x128_S850000x1_S850000x128_1_0_n_n_0_1_1128_wf)
    (gdN := Cert.ReferenceIdeal.gather_S50000x128_S850000x1_S850000x128_1_0_n_n_0_1_1128) (hgdN := rfl)
    (wfsN := Cert.ReferenceIdeal.Facts₀.scatter_S50000x128_S850000x1_S850000x128_1_0_0_1_wf)
    (sdN := Cert.ReferenceIdeal.scatter_S50000x128_S850000x1_S850000x128_1_0_0_1) (hsdN := rfl)
    (hzN := Cert.ReferenceIdeal.Facts₀.bcast_S_S50000x128) (hc1N := Cert.ReferenceIdeal.Facts₀.bcast_S850000_S850000x1_0) (hc2N := Cert.ReferenceIdeal.Facts₀.bcast_S850000x1_S850000x128_0_1)
    (hr1N := Cert.ReferenceIdeal.Facts₀.bcast_S128_S1x128_1) (hr2N := Cert.ReferenceIdeal.Facts₀.bcast_S1x128_S50000x128_0_1)
    (hcw := concatenates_S256x128_S256x128_S256x256_d1) (hcb := concatenates_S128_S128_S256_d0)
    (hsl := slices_S50000x256_S50000x128_0_128) _ _ _ _ _ _ _ _

end Cert.KernelIdeal.Bridge

end
-- ==== Proof.lean ====
/-
  A two-layer graph convolution encoder with two heads, on 50000 nodes and 800000 weighted edges.

  Both programs append one self-loop of weight one per node, add up each node's incoming weights into its degree,
  take the inverse square root of the positive degrees (zero elsewhere), and weight each edge by its own weight times
  the inverse roots at its two ends. A layer multiplies the node table by a weight matrix, and then, edge by edge,
  gathers the source row, scales it by the edge's weight and adds it into the target row; then it adds a bias. The
  first layer is cut at zero. The two heads are two such layers on the first layer's result.

  The kernel program computes the first layer's product, and the two heads' products as ONE product against the two
  head matrices laid side by side, each in a grid region that takes 5000 rows of the table at a time; it aggregates
  the joined product once, adds the joined bias, and cuts the result into its left and right halves. The reference
  computes three products on the host and aggregates each head by itself.

  Over the extended reals, with exact operations, the two agree on every input. A product taken a band of rows at a
  time is the whole product, because a row of a product depends on that row of the left factor only; and a matrix
  unit's product, the host's product and the whole product are the same plain sum. Up to the first layer's result the
  two programs then run the same operations on the same arrays. For the heads, every step of a layer acts on each
  column by itself, so the left half of the wide layer is the first head's layer and the right half the second's.
  No step cancels, distributes or divides, so nothing is asked of the inputs: the precondition is never opened.

  The three frame claims: the kernel program's frame, at either instance, is the frame theorem of its two regions
  among their host stretches; the reference, having no region, runs as a straight line of host operations. The idealized kernel is the kernel's own text read at the exact instance (no
  operation was rewritten), so that claim is empty.
-/
import proofs.«155228_j55379308315092_1_alg».proof.Defs
import proofs.«155228_j55379308315092_1_alg».proof.Proof.Gen.Kernel
import proofs.«155228_j55379308315092_1_alg».proof.Proof.Gen.Kernel.Frame
import proofs.«155228_j55379308315092_1_alg».proof.Proof.Gen.KernelIdeal
import proofs.«155228_j55379308315092_1_alg».proof.Proof.Gen.KernelIdeal.Frame
import proofs.«155228_j55379308315092_1_alg».proof.Proof.Gen.ReferenceIdeal
import proofs.«155228_j55379308315092_1_alg».proof.Proof.Gen.ReferenceIdeal.Run
import proofs.«155228_j55379308315092_1_alg».proof.Proof.Gen.ReferenceIdeal.Read
import proofs.«155228_j55379308315092_1_alg».proof.Proof.Gen.Pre_finite_inputs
import proofs.«155228_j55379308315092_1_alg».proof.Proof.RefFrame
import proofs.«155228_j55379308315092_1_alg».proof.Proof.KernelRun
import proofs.«155228_j55379308315092_1_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed terminates from every memory and leaves its arguments as they were. -/
theorem frame_k : Cert.frame_Kernel := fun m ρ _ => Cert.Kernel.Gen.frame m ρ

/-- So does the same text read at the exact instance. -/
theorem frame_ki : Cert.frame_KernelIdeal := fun m ρ _ => Cert.KernelIdeal.Gen.frame m ρ

/-- No operation was rewritten on the way to the exact instance. -/
theorem preserves : Cert.preserves_Kernel_KernelIdeal := trivial

/-- From memories that agree on the nine arguments both programs terminate, and each of the two results is the
    same array on both sides: the kernel's results are the last stage of the fold through its program, which is the
    reference's stage for that head at the same arguments. -/
theorem algebraic : Cert.algebraic_KernelIdeal_ReferenceIdeal := by
  intro m ρ m' ρ' _ hagree
  refine ⟨fun c => Cert.KernelIdeal.Gen.W9 m ρ c (Proc.devRef .tc Cert.KernelIdeal.main_v69),
    fun c => Cert.KernelIdeal.Gen.W9 m ρ c (Proc.devRef .tc Cert.KernelIdeal.main_v70),
    Cert.KernelIdeal.ValueRun.run_last m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, -, -⟩ := hagree c
    rw [Cert.ReferenceIdeal.Read.val_main_v66_eq, e0, e1, e2, e3, e4, e5, e6]
    exact (Cert.KernelIdeal.Bridge.out0 m ρ c).symm
  · obtain ⟨e0, e1, e2, e3, e4, -, -, e7, e8⟩ := hagree c
    rw [Cert.ReferenceIdeal.Read.val_main_v83_eq, e0, e1, e2, e3, e4, e7, e8]
    exact (Cert.KernelIdeal.Bridge.out1 m ρ c).symm

theorem claim : Cert.Claim :=
  ⟨Cert.Kernel.Gen.facts, Cert.KernelIdeal.Gen.facts, Cert.ReferenceIdeal.Gen.facts, Cert.Pre_finite_inputs.Gen.facts,
    frame_k, frame_ki, Cert.Proof.RefFrame.frame_ri, preserves, algebraic⟩

end Cert.Proof

end
